-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x16 : Shape := ⟨2, ![1600000, 16]⟩
abbrev S100000x16 : Shape := ⟨2, ![100000, 16]⟩
abbrev S8x16 : Shape := ⟨2, ![8, 16]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1600000 : Shape := ⟨1, ![1600000]⟩
abbrev S_ : Shape := ⟨0, ![]⟩

class Facts : Prop where
  bcast_S_S1600000x16 : S_.BroadcastsInDim S1600000x16 (![] : Fin 0 → Fin S1600000x16.rank)
  reducesTo_S1600000x16_S_d0_1 : S1600000x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S8x16 : S_.BroadcastsInDim S8x16 (![] : Fin 0 → Fin S8x16.rank)
  reducesTo_S8x16_S_d0_1 : S8x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S64x16 .f32) (main_arg8 : FVec F S16 .f32) (main_v33 : IVec S_ 1) : IVec S_ 1 :=
  let main_v34 : FVec F S64x16 .f32 := Host.absf main_arg7
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64x16 .f32) (main_arg8 : FVec F S16 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S1600000x16 .f32) (main_arg1 : FVec F S100000x16 .f32) (main_arg2 : FVec F S8x16 .f32) (main_arg3 : FVec F S64x64 .f32) (main_arg4 : FVec F S64 .f32) (main_arg5 : FVec F S64x64 .f32) (main_arg6 : FVec F S64 .f32) (main_arg7 : FVec F S64x16 .f32) (main_arg8 : FVec F S16 .f32) (main_arg9 : IVec S1600000 32) (main_arg10 : IVec S1600000 32) (main_arg11 : IVec S1600000 32) : IVec S_ 1 :=
  let main_v0 : FVec F S1600000x16 .f32 := Host.absf main_arg0
  let main_cst : FVec F S_ .f32 := constant S_ .f32 0x7F800000#32
  let main_v1 : FVec F S1600000x16 .f32 := broadcastInDim S1600000x16 ![] bcast_S_S1600000x16 main_cst
  let main_v2 : IVec S1600000x16 1 := cmpf .olt main_v0 main_v1
  let main_c : IVec S_ 1 := constantI S_ 1 1#1
  let main_v3 : IVec S_ 1 := (fun x v => Host.reduce IntOp.andi x v reducesTo_S1600000x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S8x16 .f32 := Host.absf main_arg2
  let main_cst_2 : FVec F S_ .f32 := constant S_ .f32 0x7F800000#32
  let main_v10 : FVec F S8x16 .f32 := broadcastInDim S8x16 ![] bcast_S_S8x16 main_cst_2
  let main_v11 : IVec S8x16 1 := cmpf .olt main_v9 main_v10
  let main_c_3 : IVec S_ 1 := constantI S_ 1 1#1
  let main_v12 : IVec S_ 1 := (fun x v => Host.reduce IntOp.andi x v reducesTo_S8x16_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S1600000x16 : Shape := ⟨2, ![1600000, 16]⟩
abbrev S100000x16 : Shape := ⟨2, ![100000, 16]⟩
abbrev S8x16 : Shape := ⟨2, ![8, 16]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x64 : Shape := ⟨2, ![1, 64]⟩
abbrev S1x16 : Shape := ⟨2, ![1, 16]⟩
abbrev S3200x16 : Shape := ⟨2, ![3200, 16]⟩
abbrev S16x64 : Shape := ⟨2, ![16, 64]⟩
abbrev S3200x64 : Shape := ⟨2, ![3200, 64]⟩

abbrev nBuf : Space → Nat
  | .hbm => 85
  | .vmem => 16
  | .smem => 0
  | _ => 0

abbrev bufTy : (tb : Table) → Fin (tcTables nBuf tb) → BufTy
  | .hbm, ⟨0, _⟩ => ⟨S1600000x16, .f32⟩
  | .hbm, ⟨1, _⟩ => ⟨S100000x16, .f32⟩
  | .hbm, ⟨2, _⟩ => ⟨S8x16, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x16, .f32⟩
  | .hbm, ⟨31, _⟩ => ⟨S1600000x16, .i1⟩
  | .hbm, ⟨32, _⟩ => ⟨S_, .f32⟩
  | .hbm, ⟨33, _⟩ => ⟨S1600000x16, .f32⟩
  | .hbm, ⟨34, _⟩ => ⟨S1600000x16, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x16, .f32⟩
  | .hbm, ⟨54, _⟩ => ⟨S1600000x16, .i1⟩
  | .hbm, ⟨55, _⟩ => ⟨S_, .f32⟩
  | .hbm, ⟨56, _⟩ => ⟨S1600000x16, .f32⟩
  | .hbm, ⟨57, _⟩ => ⟨S1600000x16, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x16, .f32⟩
  | .hbm, ⟨77, _⟩ => ⟨S1600000x16, .i1⟩
  | .hbm, ⟨78, _⟩ => ⟨S_, .f32⟩
  | .hbm, ⟨79, _⟩ => ⟨S1600000x16, .f32⟩
  | .hbm, ⟨80, _⟩ => ⟨S1600000x16, .f32⟩
  | .hbm, ⟨81, _⟩ => ⟨S1x64, .f32⟩
  | .hbm, ⟨82, _⟩ => ⟨S1x64, .f32⟩
  | .hbm, ⟨83, _⟩ => ⟨S1x16, .f32⟩
  | .hbm, ⟨84, _⟩ => ⟨S1600000x16, .f32⟩
  | .local _ .vmem, ⟨0, _⟩ => ⟨S3200x16, .f32⟩
  | .local _ .vmem, ⟨1, _⟩ => ⟨S3200x16, .f32⟩
  | .local _ .vmem, ⟨2, _⟩ => ⟨S3200x16, .f32⟩
  | .local _ .vmem, ⟨3, _⟩ => ⟨S3200x16, .f32⟩
  | .local _ .vmem, ⟨4, _⟩ => ⟨S3200x16, .f32⟩
  | .local _ .vmem, ⟨5, _⟩ => ⟨S3200x16, .f32⟩
  | .local _ .vmem, ⟨6, _⟩ => ⟨S3200x16, .f32⟩
  | .local _ .vmem, ⟨7, _⟩ => ⟨S3200x16, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x16, .f32⟩
  | .local _ .vmem, ⟨13, _⟩ => ⟨S1x16, .f32⟩
  | .local _ .vmem, ⟨14, _⟩ => ⟨S3200x16, .f32⟩
  | .local _ .vmem, ⟨15, _⟩ => ⟨S3200x16, .f32⟩
  | _, _ => ⟨S1600000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v2 : Ref sig .tc := ⟨.hbm, 80, rfl⟩
abbrev main_v3 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S3200x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  shapeCasts_S64_S1x64 : S64.ShapeCasts S1x64
  shapeCasts_S16_S1x16 : S16.ShapeCasts S1x16
  inb_S3200x16_S3200x16_0_0 : ∀ a, (![0, 0] : Fin 2 → Nat) a + S3200x16.size a ≤ S3200x16.size a
  h_S3200x16 : 0 < S3200x16.numel
  bitsLt_bf16_f32 : FTy.bits .bf16 < FTy.bits .f32
  shapeCasts_S3200x16_S3200x16 : S3200x16.ShapeCasts S3200x16
  inb_S64x64_S64x64_0_0 : ∀ a, (![0, 0] : Fin 2 → Nat) a + S64x64.size a ≤ S64x64.size a
  h_S64x64 : 0 < S64x64.numel
  slices_S64x64_o0_0_S16x64 : S64x64.Slices ![0, 0] S16x64
  slices_S64x64_o16_0_S16x64 : S64x64.Slices ![16, 0] S16x64
  slices_S64x64_o32_0_S16x64 : S64x64.Slices ![32, 0] S16x64
  slices_S64x64_o48_0_S16x64 : S64x64.Slices ![48, 0] S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S3200x16 : S1x16.Broadcasts S3200x16
  gather_S100000x16_S1600000x1_S1600000x16_1_0_n_n_0_1_116_wf : GatherDims.WF S100000x16 S1600000x1 S1600000x16 [1] [0] [] [0] [] 1 ![1, 16]
  gather_S8x16_S1600000x1_S1600000x16_1_0_n_n_0_1_116_wf : GatherDims.WF S8x16 S1600000x1 S1600000x16 [1] [0] [] [0] [] 1 ![1, 16]
  dot_S3200x16_S16x64_S3200x64_1_0_0_1_n_n_wf : DotDims.WF S3200x16 S16x64 S3200x64 [1] [0] [0] [1] [] []
  dot_S3200x64_S64x64_S3200x64_1_0_0_1_n_n_wf : DotDims.WF S3200x64 S64x64 S3200x64 [1] [0] [0] [1] [] []
  dot_S3200x64_S64x16_S3200x16_1_0_0_1_n_n_wf : DotDims.WF S3200x64 S64x16 S3200x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x16.size a ≤ S1600000x16.size a
  hwx0_0 : ∀ i : grid0.Coords, EltTy.bits .f32 = 32 ∨ (Rect.block (s := S1600000x16) S3200x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x16.size a ≤ S1600000x16.size a
  hwx0_1 : ∀ i : grid0.Coords, EltTy.bits .f32 = 32 ∨ (Rect.block (s := S1600000x16) S3200x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x16.size a ≤ S1600000x16.size a
  hwx0_2 : ∀ i : grid0.Coords, EltTy.bits .f32 = 32 ∨ (Rect.block (s := S1600000x16) S3200x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x16.size a ≤ S1600000x16.size a
  hwx0_3 : ∀ i : grid0.Coords, EltTy.bits .f32 = 32 ∨ (Rect.block (s := S1600000x16) S3200x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x16.size a ≤ S64x16.size a
  hwx0_8 : ∀ i : grid0.Coords, EltTy.bits .f32 = 32 ∨ (Rect.block (s := S64x16) S64x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S3200x16.size a ≤ S1600000x16.size a
  hwx0_10 : ∀ i : grid0.Coords, EltTy.bits .f32 = 32 ∨ (Rect.block (s := S1600000x16) S3200x16.size (cc0_transform_10 i) (hinb0_10 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S8x16_S1600000x1_S1600000x16_1_0_n_n_0_1_116 : GatherDims S8x16 S1600000x1 S1600000x16 where
  offsetDims := [1]
  collapsedSliceDims := [0]
  operandBatchingDims := []
  startIndicesBatchingDims := []
  startIndexMap := [0]
  indexVectorDim := 1
  sliceSizes := ![1, 16]
  wf := gather_S8x16_S1600000x1_S1600000x16_1_0_n_n_0_1_116_wf
def dot_S3200x16_S16x64_S3200x64_1_0_0_1_n_n : DotDims S3200x16 S16x64 S3200x64 where
  lhsContracting := [1]
  rhsContracting := [0]
  lhsNonContracting := [0]
  rhsNonContracting := [1]
  lhsBatch := []
  rhsBatch := []
  wf := dot_S3200x16_S16x64_S3200x64_1_0_0_1_n_n_wf
def dot_S3200x64_S64x64_S3200x64_1_0_0_1_n_n : DotDims S3200x64 S64x64 S3200x64 where
  lhsContracting := [1]
  rhsContracting := [0]
  lhsNonContracting := [0]
  rhsNonContracting := [1]
  lhsBatch := []
  rhsBatch := []
  wf := dot_S3200x64_S64x64_S3200x64_1_0_0_1_n_n_wf
def dot_S3200x64_S64x16_S3200x16_1_0_0_1_n_n : DotDims S3200x64 S64x16 S3200x16 where
  lhsContracting := [1]
  rhsContracting := [0]
  lhsNonContracting := [0]
  rhsNonContracting := [1]
  lhsBatch := []
  rhsBatch := []
  wf := dot_S3200x64_S64x16_S3200x16_1_0_0_1_n_n_wf

abbrev win0_0 : Pipeline.Window sig grid0 :=
  Pipeline.Window.ofSpec (Memref.whole main_arg0) S3200x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3200x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3200x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3200x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S3200x16.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S1600000x16 : Shape := ⟨2, ![1600000, 16]⟩
abbrev S100000x16 : Shape := ⟨2, ![100000, 16]⟩
abbrev S8x16 : Shape := ⟨2, ![8, 16]⟩
abbrev S64x64 : Shape := ⟨2, ![64, 64]⟩
abbrev S64 : Shape := ⟨1, ![64]⟩
abbrev S64x16 : Shape := ⟨2, ![64, 16]⟩
abbrev S16 : Shape := ⟨1, ![16]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S1x16 : Shape := ⟨2, ![1, 16]⟩

abbrev nBuf : Space → Nat
  | .hbm => 100
  | .vmem => 0
  | .smem => 0
  | _ => 0

abbrev bufTy : (tb : Table) → Fin (tcTables nBuf tb) → BufTy
  | .hbm, ⟨0, _⟩ => ⟨S1600000x16, .f32⟩
  | .hbm, ⟨1, _⟩ => ⟨S100000x16, .f32⟩
  | .hbm, ⟨2, _⟩ => ⟨S8x16, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x16, .f32⟩
  | .hbm, ⟨8, _⟩ => ⟨S16, .f32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x16, .f32⟩
  | .hbm, ⟨31, _⟩ => ⟨S1600000x16, .i1⟩
  | .hbm, ⟨32, _⟩ => ⟨S_, .f32⟩
  | .hbm, ⟨33, _⟩ => ⟨S1600000x16, .f32⟩
  | .hbm, ⟨34, _⟩ => ⟨S1600000x16, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x16, .f32⟩
  | .hbm, ⟨54, _⟩ => ⟨S1600000x16, .i1⟩
  | .hbm, ⟨55, _⟩ => ⟨S_, .f32⟩
  | .hbm, ⟨56, _⟩ => ⟨S1600000x16, .f32⟩
  | .hbm, ⟨57, _⟩ => ⟨S1600000x16, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x16, .f32⟩
  | .hbm, ⟨77, _⟩ => ⟨S1600000x16, .i1⟩
  | .hbm, ⟨78, _⟩ => ⟨S_, .f32⟩
  | .hbm, ⟨79, _⟩ => ⟨S1600000x16, .f32⟩
  | .hbm, ⟨80, _⟩ => ⟨S1600000x16, .f32⟩
  | .hbm, ⟨81, _⟩ => ⟨S1600000x64, .f32⟩
  | .hbm, ⟨82, _⟩ => ⟨S1600000x64, .f32⟩
  | .hbm, ⟨83, _⟩ => ⟨S1x64, .f32⟩
  | .hbm, ⟨84, _⟩ => ⟨S1600000x64, .f32⟩
  | .hbm, ⟨85, _⟩ => ⟨S1600000x64, .f32⟩
  | .hbm, ⟨86, _⟩ => ⟨S_, .f32⟩
  | .hbm, ⟨87, _⟩ => ⟨S1600000x64, .f32⟩
  | .hbm, ⟨88, _⟩ => ⟨S1600000x64, .f32⟩
  | .hbm, ⟨89, _⟩ => ⟨S1600000x64, .f32⟩
  | .hbm, ⟨90, _⟩ => ⟨S1x64, .f32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S1600000x64, .f32⟩
  | .hbm, ⟨95, _⟩ => ⟨S1600000x64, .f32⟩
  | .hbm, ⟨96, _⟩ => ⟨S1600000x16, .f32⟩
  | .hbm, ⟨97, _⟩ => ⟨S1x16, .f32⟩
  | .hbm, ⟨98, _⟩ => ⟨S1600000x16, .f32⟩
  | .hbm, ⟨99, _⟩ => ⟨S1600000x16, .f32⟩
  | _, _ => ⟨S1600000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v1 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v2 : Ref sig .tc := ⟨.hbm, 80, rfl⟩
abbrev main_v3 : Ref sig .tc := ⟨.hbm, 81, rfl⟩
abbrev main_v4 : Ref sig .tc := ⟨.hbm, 82, rfl⟩
abbrev main_v5 : Ref sig .tc := ⟨.hbm, 83, rfl⟩
abbrev main_v6 : Ref sig .tc := ⟨.hbm, 84, rfl⟩
abbrev main_v7 : Ref sig .tc := ⟨.hbm, 85, rfl⟩
abbrev main_call3_cst : Ref sig .tc := ⟨.hbm, 86, rfl⟩
abbrev main_call3_v0 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_v11 : Ref sig .tc := ⟨.hbm, 91, rfl⟩
abbrev main_v12 : Ref sig .tc := ⟨.hbm, 92, rfl⟩
abbrev main_call4_cst : Ref sig .tc := ⟨.hbm, 93, rfl⟩
abbrev main_call4_v0 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  concatenates_S1600000x16_S1600000x16_S1600000x16_S1600000x16_S1600000x64_d1 : Shape.Concatenates [S1600000x16, S1600000x16, S1600000x16, S1600000x16] S1600000x64 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S16_S1x16_1 : S16.BroadcastsInDim S1x16 (![1] : Fin 1 → Fin S1x16.rank)
  bcast_S1x16_S1600000x16_0_1 : S1x16.BroadcastsInDim S1600000x16 (![0, 1] : Fin 2 → Fin S1600000x16.rank)
  gather_S100000x16_S1600000x1_S1600000x16_1_0_n_n_0_1_116_wf : GatherDims.WF S100000x16 S1600000x1 S1600000x16 [1] [0] [] [0] [] 1 ![1, 16]
  gather_S8x16_S1600000x1_S1600000x16_1_0_n_n_0_1_116_wf : GatherDims.WF S8x16 S1600000x1 S1600000x16 [1] [0] [] [0] [] 1 ![1, 16]
  dot_S1600000x64_S64x64_S1600000x64_1_0_0_1_n_n_wf : DotDims.WF S1600000x64 S64x64 S1600000x64 [1] [0] [0] [1] [] []
  dot_S1600000x64_S64x16_S1600000x16_1_0_0_1_n_n_wf : DotDims.WF S1600000x64 S64x16 S1600000x16 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S8x16_S1600000x1_S1600000x16_1_0_n_n_0_1_116 : GatherDims S8x16 S1600000x1 S1600000x16 where
  offsetDims := [1]
  collapsedSliceDims := [0]
  operandBatchingDims := []
  startIndicesBatchingDims := []
  startIndexMap := [0]
  indexVectorDim := 1
  sliceSizes := ![1, 16]
  wf := gather_S8x16_S1600000x1_S1600000x16_1_0_n_n_0_1_116_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x16_S1600000x16_1_0_0_1_n_n : DotDims S1600000x64 S64x16 S1600000x16 where
  lhsContracting := [1]
  rhsContracting := [0]
  lhsNonContracting := [0]
  rhsNonContracting := [1]
  lhsBatch := []
  rhsBatch := []
  wf := dot_S1600000x64_S64x16_S1600000x16_1_0_0_1_n_n_wf

class Facts : Prop extends Facts₀ where

variable [Facts]
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.MlpSpec.lean ====
/-
  One row of the edge network, on the extended reals, in the two arrangements the two programs use.

  An edge's input is the concatenation of four 16-wide rows (its own features, the receiver's, the sender's, its graph's);
  the first layer multiplies that 64-wide row by a 64 × 64 weight. Computed band by band — each 16-wide row against the
  16 rows of the weight at the band's position, the four partial products added left to right — the first layer is the same
  number as computed on the concatenated row: a sum over 64 positions is the sum of its four bands of 16, by
  associativity and commutativity of addition alone (no distributivity, so nothing needs to be finite).
  Independent of any program.
-/
import Idealize.ShloMosaic.PureOps.Ideal
import Idealize.ShloMosaic.Lib.ValueIdx
import Mathlib.Algebra.BigOperators.Fin

noncomputable section

namespace Cert.EdgeMlp

/-- Position `k` of band `b` of an axis of 64 cut into four bands of 16. -/
def band (b : Fin 4) (k : Fin 16) : Fin 64 := ⟨16 * b.val + k.val, by have := b.isLt; have := k.isLt; omega⟩

/-- A sum over 64 positions is the sum of its four bands, left to right. -/
theorem sum_bands {M : Type} [AddCommMonoid M] (f : Fin 64 → M) :
    ∑ k, f k = (((∑ k, f (band 0 k)) + ∑ k, f (band 1 k)) + ∑ k, f (band 2 k)) + ∑ k, f (band 3 k) := by
  have e : ∑ k : Fin 64, f k = ∑ b : Fin 4, ∑ k : Fin 16, f (band b k) := by
    rw [← Equiv.sum_comp (finProdFinEquiv : Fin 4 × Fin 16 ≃ Fin (4 * 16)) f, Fintype.sum_prod_type]
    refine Finset.sum_congr rfl fun b _ => Finset.sum_congr rfl fun k _ => congrArg f (Fin.ext ?_)
    show k.val + 16 * b.val = 16 * b.val + k.val
    omega
  rw [e, Fin.sum_univ_four]

/-- Four 16-wide rows laid end to end. -/
def cat4 (e r s g : Fin 16 → EReal) (k : Fin 64) : EReal :=
  if h : k.val < 16 then e ⟨k.val, h⟩
  else if h2 : k.val < 32 then r ⟨k.val - 16, by omega⟩
  else if h3 : k.val < 48 then s ⟨k.val - 32, by omega⟩
  else g ⟨k.val - 48, by have := k.isLt; omega⟩

theorem cat4_band0 (e r s g : Fin 16 → EReal) (k : Fin 16) : cat4 e r s g (band 0 k) = e k := by
  have hk := k.isLt
  unfold cat4 band
  rw [dif_pos (show (16 * (0 : Fin 4).val + k.val) < 16 by show 16 * 0 + k.val < 16; omega)]
  exact congrArg e (Fin.ext (by show 16 * 0 + k.val = k.val; omega))

theorem cat4_band1 (e r s g : Fin 16 → EReal) (k : Fin 16) : cat4 e r s g (band 1 k) = r k := by
  have hk := k.isLt
  unfold cat4 band
  rw [dif_neg (show ¬ (16 * (1 : Fin 4).val + k.val) < 16 by show ¬ 16 * 1 + k.val < 16; omega),
    dif_pos (show (16 * (1 : Fin 4).val + k.val) < 32 by show 16 * 1 + k.val < 32; omega)]
  exact congrArg r (Fin.ext (by show 16 * 1 + k.val - 16 = k.val; omega))

theorem cat4_band2 (e r s g : Fin 16 → EReal) (k : Fin 16) : cat4 e r s g (band 2 k) = s k := by
  have hk := k.isLt
  unfold cat4 band
  rw [dif_neg (show ¬ (16 * (2 : Fin 4).val + k.val) < 16 by show ¬ 16 * 2 + k.val < 16; omega),
    dif_neg (show ¬ (16 * (2 : Fin 4).val + k.val) < 32 by show ¬ 16 * 2 + k.val < 32; omega),
    dif_pos (show (16 * (2 : Fin 4).val + k.val) < 48 by show 16 * 2 + k.val < 48; omega)]
  exact congrArg s (Fin.ext (by show 16 * 2 + k.val - 32 = k.val; omega))

theorem cat4_band3 (e r s g : Fin 16 → EReal) (k : Fin 16) : cat4 e r s g (band 3 k) = g k := by
  have hk := k.isLt
  unfold cat4 band
  rw [dif_neg (show ¬ (16 * (3 : Fin 4).val + k.val) < 16 by show ¬ 16 * 3 + k.val < 16; omega),
    dif_neg (show ¬ (16 * (3 : Fin 4).val + k.val) < 32 by show ¬ 16 * 3 + k.val < 32; omega),
    dif_neg (show ¬ (16 * (3 : Fin 4).val + k.val) < 48 by show ¬ 16 * 3 + k.val < 48; omega)]
  exact congrArg g (Fin.ext (by show 16 * 3 + k.val - 48 = k.val; omega))

/-- The first layer band by band: the four partial products added left to right, the bias, the rectifier (a maximum with
    `z`, the programs' zero). -/
def hid1 (z : EReal) (e r s g : Fin 16 → EReal) (W0 : Fin 64 → Fin 64 → EReal) (b0 : Fin 64 → EReal) (j : Fin 64) : EReal :=
  max (((((∑ k, e k * W0 (band 0 k) j) + ∑ k, r k * W0 (band 1 k) j) + ∑ k, s k * W0 (band 2 k) j)
        + ∑ k, g k * W0 (band 3 k) j) + b0 j) z

/-- The first layer on the concatenated row. -/
def hid1cat (z : EReal) (x : Fin 64 → EReal) (W0 : Fin 64 → Fin 64 → EReal) (b0 : Fin 64 → EReal) (j : Fin 64) : EReal :=
  max ((∑ k, x k * W0 k j) + b0 j) z

/-- THE LAW that joins the two programs: the first layer of the concatenation is the first layer band by band. -/
theorem hid1cat_cat4 (z : EReal) (e r s g : Fin 16 → EReal) (W0 : Fin 64 → Fin 64 → EReal) (b0 : Fin 64 → EReal) (j : Fin 64) :
    hid1cat z (cat4 e r s g) W0 b0 j = hid1 z e r s g W0 b0 j := by
  unfold hid1cat hid1
  rw [sum_bands (fun k => cat4 e r s g k * W0 k j)]
  simp only [cat4_band0, cat4_band1, cat4_band2, cat4_band3]

/-- A hidden layer: the 64-wide row against a 64 × 64 weight, the bias, the rectifier. -/
def hid2 (z : EReal) (h : Fin 64 → EReal) (W1 : Fin 64 → Fin 64 → EReal) (b1 : Fin 64 → EReal) (j : Fin 64) : EReal :=
  max ((∑ k, h k * W1 k j) + b1 j) z

/-- The output layer: the 64-wide row against a 64 × 16 weight, and the bias. -/
def outv (h : Fin 64 → EReal) (W2 : Fin 64 → Fin 16 → EReal) (b2 : Fin 16 → EReal) (q : Fin 16) : EReal :=
  (∑ k, h k * W2 k q) + b2 q

/-- One edge's updated features, from its four input rows and the three layers' weights and biases. -/
def mlpRow (z : EReal) (e r s g : Fin 16 → EReal) (W0 : Fin 64 → Fin 64 → EReal) (b0 : Fin 64 → EReal)
    (W1 : Fin 64 → Fin 64 → EReal) (b1 : Fin 64 → EReal) (W2 : Fin 64 → Fin 16 → EReal) (b2 : Fin 16 → EReal) (q : Fin 16) : EReal :=
  outv (hid2 z (hid1 z e r s g W0 b0) W1 b1) W2 b2 q

/-! ## The same over arrays -/

open Idealize.ShloMosaic Idealize.ShloMosaic.ValueIdx

/-- Row `p` of a matrix. -/
def row {R C : Nat} (x : (⟨2, ![R, C]⟩ : Shape).Idx → EReal) (p : Fin R) : Fin C → EReal := fun k => x (ix2 p k)
/-- A matrix by its two coordinates. -/
def mat {A B : Nat} (x : (⟨2, ![A, B]⟩ : Shape).Idx → EReal) : Fin A → Fin B → EReal := fun a b => x (ix2 a b)
/-- A vector by its coordinate. -/
def vec {B : Nat} (x : (⟨1, ![B]⟩ : Shape).Idx → EReal) : Fin B → EReal := fun b => x (ix1 b)

/-- THE RESULT ARRAY as one function of the argument arrays: entry (n, q) is edge n's updated feature q, from row n of
    the edge features and of the three gathered arrays. -/
def G (z : EReal) (edges recv send glob : (⟨2, ![1600000, 16]⟩ : Shape).Idx → EReal)
    (W0 : (⟨2, ![64, 64]⟩ : Shape).Idx → EReal) (b0 : Fin 64 → EReal)
    (W1 : (⟨2, ![64, 64]⟩ : Shape).Idx → EReal) (b1 : Fin 64 → EReal)
    (W2 : (⟨2, ![64, 16]⟩ : Shape).Idx → EReal) (b2 : Fin 16 → EReal) : (⟨2, ![1600000, 16]⟩ : Shape).Idx → EReal :=
  fun i => mlpRow z (row edges (i 0)) (row recv (i 0)) (row send (i 0)) (row glob (i 0)) (mat W0) b0 (mat W1) b1 (mat W2) b2 (i 1)

end Cert.EdgeMlp

end
-- ==== Proof.KernelPayload.lean ====
/-
  What the kernel body stores, read at one entry.

  The body's one store writes, for the 3200 edges of its block, the three-layer network of each edge: the first layer as
  four 16-deep products (the edge's own row, the receiver's, the sender's, the graph's, each against its band of 16 rows
  of the first weight, cut out of the loaded weight by a slice) added left to right, then the bias row, the rectifier, a
  64-deep product, bias, rectifier, and the 64-deep output product and its bias. At the extended reals a change of float
  format is the identity and a product into a zero accumulator is the plain sum over the contracted position, so entry
  (p, q) of the stored block is `mlpRow` of row p of the four input blocks.
-/
import proofs.«160168_j83631603188044_1_alg».proof.Proof.Gen.KernelIdeal.Skeleton
import proofs.«160168_j83631603188044_1_alg».proof.Proof.LibPlainDot
import proofs.«160168_j83631603188044_1_alg».proof.Proof.MlpSpec
import Idealize.ShloMosaic.Lib.ValueIdx
import Idealize.ShloMosaic.Lib.ValueLayout
import Idealize.ShloMosaic.Lib.Pipeline.Value

noncomputable section

namespace Cert.KernelIdeal.BlockValue

open Cert.KernelIdeal Cert.KernelIdeal.Gen Idealize.ShloMosaic Idealize.ShloMosaic.ValueIdx Cert.EdgeMlp

/-- The programs' zero. -/
abbrev z : EReal := Ideal.ofBits .f32 0x00000000#32

/-! ## The three products, each into a zero accumulator, at an entry -/

theorem mm16 (l : FVec Ideal S3200x16 .bf16) (r : FVec Ideal S16x64 .bf16) (p : Fin 3200) (j : Fin 64) :
    matmul dot_S3200x16_S16x64_S3200x64_1_0_0_1_n_n none l r (constant (F := Ideal) S3200x64 .f32 0x00000000#32) (ix2 p j)
      = ∑ k : Fin 16, l (ix2 p k) * r (ix2 k j) :=
  Cert.Lib.matmul_zero_apply Facts₀.dot_S3200x16_S16x64_S3200x64_1_0_0_1_n_n_wf none l r p j

theorem mm64 (l : FVec Ideal S3200x64 .bf16) (r : FVec Ideal S64x64 .bf16) (p : Fin 3200) (j : Fin 64) :
    matmul dot_S3200x64_S64x64_S3200x64_1_0_0_1_n_n none l r (constant (F := Ideal) S3200x64 .f32 0x00000000#32) (ix2 p j)
      = ∑ k : Fin 64, l (ix2 p k) * r (ix2 k j) :=
  Cert.Lib.matmul_zero_apply Facts₀.dot_S3200x64_S64x64_S3200x64_1_0_0_1_n_n_wf none l r p j

theorem mmOut (l : FVec Ideal S3200x64 .bf16) (r : FVec Ideal S64x16 .bf16) (p : Fin 3200) (q : Fin 16) :
    matmul dot_S3200x64_S64x16_S3200x16_1_0_0_1_n_n none l r (constant (F := Ideal) S3200x16 .f32 0x00000000#32) (ix2 p q)
      = ∑ k : Fin 64, l (ix2 p k) * r (ix2 k q) :=
  Cert.Lib.matmul_zero_apply Facts₀.dot_S3200x64_S64x16_S3200x16_1_0_0_1_n_n_wf none l r p q

/-! ## The four bands of the first weight: a slice of 16 rows read at (k, j) is the weight at (16·b + k, j) -/

theorem slice_band0 (w : FVec Ideal S64x64 .bf16) (k : Fin 16) (j : Fin 64) :
    extractStridedSlice S16x64 ![0, 0] w Facts₀.slices_S64x64_o0_0_S16x64 (ix2 k j) = w (ix2 (band 0 k) j) :=
  extractStridedSlice_apply _ w _ (ix2 k j) (ix2 (band 0 k) j) fun a => by
    match a with
    | ⟨0, _⟩ => show 16 * 0 + k.val = 0 + k.val; omega
    | ⟨1, _⟩ => show j.val = 0 + j.val; omega

theorem slice_band1 (w : FVec Ideal S64x64 .bf16) (k : Fin 16) (j : Fin 64) :
    extractStridedSlice S16x64 ![16, 0] w Facts₀.slices_S64x64_o16_0_S16x64 (ix2 k j) = w (ix2 (band 1 k) j) :=
  extractStridedSlice_apply _ w _ (ix2 k j) (ix2 (band 1 k) j) fun a => by
    match a with
    | ⟨0, _⟩ => show 16 * 1 + k.val = 16 + k.val; omega
    | ⟨1, _⟩ => show j.val = 0 + j.val; omega

theorem slice_band2 (w : FVec Ideal S64x64 .bf16) (k : Fin 16) (j : Fin 64) :
    extractStridedSlice S16x64 ![32, 0] w Facts₀.slices_S64x64_o32_0_S16x64 (ix2 k j) = w (ix2 (band 2 k) j) :=
  extractStridedSlice_apply _ w _ (ix2 k j) (ix2 (band 2 k) j) fun a => by
    match a with
    | ⟨0, _⟩ => show 16 * 2 + k.val = 32 + k.val; omega
    | ⟨1, _⟩ => show j.val = 0 + j.val; omega

theorem slice_band3 (w : FVec Ideal S64x64 .bf16) (k : Fin 16) (j : Fin 64) :
    extractStridedSlice S16x64 ![48, 0] w Facts₀.slices_S64x64_o48_0_S16x64 (ix2 k j) = w (ix2 (band 3 k) j) :=
  extractStridedSlice_apply _ w _ (ix2 k j) (ix2 (band 3 k) j) fun a => by
    match a with
    | ⟨0, _⟩ => show 16 * 3 + k.val = 48 + k.val; omega
    | ⟨1, _⟩ => show j.val = 0 + j.val; omega

/-! ## The bias rows spread over the block -/

theorem bias64 (v : Vec Ideal S1x64 .f32) (p : Fin 3200) (j : Fin 64) :
    broadcastTo S3200x64 (shapeCast S1x64 v Facts₀.shapeCasts_S1x64_S1x64) Facts₀.broadcasts_S1x64_S3200x64 (ix2 p j) = v (ix2 (0 : Fin 1) j) := by
  rw [shapeCast_self]
  exact broadcastTo_1b_ab_apply v Facts₀.broadcasts_S1x64_S3200x64 p j

theorem bias16 (v : Vec Ideal S1x16 .f32) (p : Fin 3200) (q : Fin 16) :
    broadcastTo S3200x16 (shapeCast S1x16 v Facts₀.shapeCasts_S1x16_S1x16) Facts₀.broadcasts_S1x16_S3200x16 (ix2 p q) = v (ix2 (0 : Fin 1) q) := by
  rw [shapeCast_self]
  exact broadcastTo_1b_ab_apply v Facts₀.broadcasts_S1x16_S3200x16 p q

theorem bcast64 (v : Vec Ideal S1x64 .f32) (p : Fin 3200) (j : Fin 64) :
    broadcastTo S3200x64 v Facts₀.broadcasts_S1x64_S3200x64 (ix2 p j) = v (ix2 (0 : Fin 1) j) :=
  broadcastTo_1b_ab_apply v Facts₀.broadcasts_S1x64_S3200x64 p j

theorem bcast16 (v : Vec Ideal S1x16 .f32) (p : Fin 3200) (q : Fin 16) :
    broadcastTo S3200x16 v Facts₀.broadcasts_S1x16_S3200x16 (ix2 p q) = v (ix2 (0 : Fin 1) q) :=
  broadcastTo_1b_ab_apply v Facts₀.broadcasts_S1x16_S3200x16 p q

/-! ## The payloads -/

/-- The second bias row over the block. -/
theorem pay3_apply (x7 : Vec Ideal S1x64 .f32) (p : Fin 3200) (j : Fin 64) :
    k0_pay3 (F := Ideal) x7 (ix2 p j) = x7 (ix2 (0 : Fin 1) j) := by
  unfold k0_pay3
  exact bias64 x7 p j

/-- The second layer's product: its left factor is the first layer's rectified output. -/
theorem pay2_apply (x0 x1 x2 x3 : Vec Ideal S3200x16 .f32) (x4 : Vec Ideal S64x64 .f32) (x5 : Vec Ideal S1x64 .f32)
    (x6 : Vec Ideal S64x64 .f32) (p : Fin 3200) (j : Fin 64) :
    k0_pay2 (F := Ideal) x0 x1 x2 x3 x4 x5 x6 (ix2 p j)
      = ∑ k : Fin 64, hid1 z (row x0 p) (row x1 p) (row x2 p) (row x3 p) (mat x4) (fun j => x5 (ix2 (0 : Fin 1) j)) k * x6 (ix2 k j) := by
  unfold k0_pay2
  rw [mm64]
  refine Finset.sum_congr rfl fun k _ => ?_
  simp only [truncf_apply, maximumf_apply, addf_apply, broadcast_apply, shapeCast_self, mm16, slice_band0, slice_band1, slice_band2,
    slice_band3, broadcastTo_1b_ab_apply]
  rfl

/-- THE STORED BLOCK AT (p, q): edge p's updated feature q from row p of the four input blocks. -/
theorem pay_apply (x0 x1 x2 x3 : Vec Ideal S3200x16 .f32) (x4 : Vec Ideal S64x64 .f32) (x5 : Vec Ideal S1x64 .f32)
    (x6 : Vec Ideal S64x64 .f32) (x7 : Vec Ideal S1x64 .f32) (x8 : Vec Ideal S64x16 .f32) (x9 : Vec Ideal S1x16 .f32)
    (p : Fin 3200) (q : Fin 16) :
    k0_pay1 (F := Ideal) (k0_pay2 x0 x1 x2 x3 x4 x5 x6) (k0_pay3 x7) x8 x9 (ix2 p q)
      = mlpRow z (row x0 p) (row x1 p) (row x2 p) (row x3 p) (mat x4) (fun j => x5 (ix2 (0 : Fin 1) j))
          (mat x6) (fun j => x7 (ix2 (0 : Fin 1) j)) (mat x8) (fun q => x9 (ix2 (0 : Fin 1) q)) q := by
  unfold k0_pay1
  rw [addf_apply, mmOut, bias16]
  unfold mlpRow outv
  refine congrArg (· + x9 (ix2 (0 : Fin 1) q)) (Finset.sum_congr rfl fun k _ => ?_)
  simp only [truncf_apply, maximumf_apply, addf_apply, broadcast_apply, pay2_apply, pay3_apply]
  rfl

end Cert.KernelIdeal.BlockValue

end
-- ==== Proof.KernelValue.lean ====
/-
  From blocks to the array: the kernel's result as one function of the arrays the region finds.

  The grid has 500 points; at point t the four edge-indexed windows (the edges' own features and the three gathered
  arrays) and the output window hold rows 3200·t … 3200·t + 3199 of their arrays, and the six weight and bias windows
  hold their whole arrays. What point t writes back is therefore, at row p of its block, the network of row 3200·t + p
  of the four edge-indexed arrays: block t of ONE whole-array function. The 500 blocks tile the 1 600 000 rows (row n
  is in block n / 3200), so after the run the output array IS that function.
-/
import proofs.«160168_j83631603188044_1_alg».proof.Proof.Gen.KernelIdeal.Value
import proofs.«160168_j83631603188044_1_alg».proof.Proof.KernelPayload
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx Cert.EdgeMlp Cert.KernelIdeal.BlockValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 500 points: the edge-indexed windows and the output are at block (t, 0),
    the weights and biases at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- The array row that row `p` of point `t`'s block is. -/
def rowOf (t : Fin cfg0.N) (p : Fin 3200) : Fin 1600000 :=
  ⟨t.val * 3200 + p.val, by have ht : t.val < 500 := lt_of_lt_of_eq t.isLt N_0; have := p.isLt; omega⟩

/-- Window 0's block at point `t` is rows `3200·t … 3200·t + 3199` of its array. -/
theorem emb0 (t : Fin cfg0.N) (p : Fin 3200) (k : Fin 16) :
    ((cfg0.win 0).blk t).view.emb (ix2 p k) = ix2 (rowOf t p) k := by
  have h := idx_facts t
  funext a; apply Fin.ext
  match a with
  | ⟨0, _⟩ => show win0_0.index t (0 : Fin 2) * 3200 + 1 * p.val = t.val * 3200 + p.val; omega
  | ⟨1, _⟩ => show win0_0.index t (1 : Fin 2) * 16 + 1 * k.val = k.val; omega

/-- Window 1's block at point `t` is rows `3200·t … 3200·t + 3199` of its array. -/
theorem emb1 (t : Fin cfg0.N) (p : Fin 3200) (k : Fin 16) :
    ((cfg0.win 1).blk t).view.emb (ix2 p k) = ix2 (rowOf t p) k := by
  have h := idx_facts t
  funext a; apply Fin.ext
  match a with
  | ⟨0, _⟩ => show win0_1.index t (0 : Fin 2) * 3200 + 1 * p.val = t.val * 3200 + p.val; omega
  | ⟨1, _⟩ => show win0_1.index t (1 : Fin 2) * 16 + 1 * k.val = k.val; omega

/-- Window 2's block at point `t` is rows `3200·t … 3200·t + 3199` of its array. -/
theorem emb2 (t : Fin cfg0.N) (p : Fin 3200) (k : Fin 16) :
    ((cfg0.win 2).blk t).view.emb (ix2 p k) = ix2 (rowOf t p) k := by
  have h := idx_facts t
  funext a; apply Fin.ext
  match a with
  | ⟨0, _⟩ => show win0_2.index t (0 : Fin 2) * 3200 + 1 * p.val = t.val * 3200 + p.val; omega
  | ⟨1, _⟩ => show win0_2.index t (1 : Fin 2) * 16 + 1 * k.val = k.val; omega

/-- Window 3's block at point `t` is rows `3200·t … 3200·t + 3199` of its array. -/
theorem emb3 (t : Fin cfg0.N) (p : Fin 3200) (k : Fin 16) :
    ((cfg0.win 3).blk t).view.emb (ix2 p k) = ix2 (rowOf t p) k := by
  have h := idx_facts t
  funext a; apply Fin.ext
  match a with
  | ⟨0, _⟩ => show win0_3.index t (0 : Fin 2) * 3200 + 1 * p.val = t.val * 3200 + p.val; omega
  | ⟨1, _⟩ => show win0_3.index t (1 : Fin 2) * 16 + 1 * k.val = k.val; omega

/-- Window 4's block is its whole array at every point. -/
theorem emb4 (t : Fin cfg0.N) (a : Fin 64) (b : Fin 64) :
    ((cfg0.win 4).blk t).view.emb (ix2 a b) = ix2 a b := by
  have h := idx_facts t
  funext d; apply Fin.ext
  match d with
  | ⟨0, _⟩ => show win0_4.index t (0 : Fin 2) * 64 + 1 * a.val = a.val; omega
  | ⟨1, _⟩ => show win0_4.index t (1 : Fin 2) * 64 + 1 * b.val = b.val; omega

/-- Window 5's block is its whole array at every point. -/
theorem emb5 (t : Fin cfg0.N) (a : Fin 1) (b : Fin 64) :
    ((cfg0.win 5).blk t).view.emb (ix2 a b) = ix2 a b := by
  have h := idx_facts t
  funext d; apply Fin.ext
  match d with
  | ⟨0, _⟩ => show win0_5.index t (0 : Fin 2) * 1 + 1 * a.val = a.val; omega
  | ⟨1, _⟩ => show win0_5.index t (1 : Fin 2) * 64 + 1 * b.val = b.val; omega

/-- Window 6's block is its whole array at every point. -/
theorem emb6 (t : Fin cfg0.N) (a : Fin 64) (b : Fin 64) :
    ((cfg0.win 6).blk t).view.emb (ix2 a b) = ix2 a b := by
  have h := idx_facts t
  funext d; apply Fin.ext
  match d with
  | ⟨0, _⟩ => show win0_6.index t (0 : Fin 2) * 64 + 1 * a.val = a.val; omega
  | ⟨1, _⟩ => show win0_6.index t (1 : Fin 2) * 64 + 1 * b.val = b.val; omega

/-- Window 7's block is its whole array at every point. -/
theorem emb7 (t : Fin cfg0.N) (a : Fin 1) (b : Fin 64) :
    ((cfg0.win 7).blk t).view.emb (ix2 a b) = ix2 a b := by
  have h := idx_facts t
  funext d; apply Fin.ext
  match d with
  | ⟨0, _⟩ => show win0_7.index t (0 : Fin 2) * 1 + 1 * a.val = a.val; omega
  | ⟨1, _⟩ => show win0_7.index t (1 : Fin 2) * 64 + 1 * b.val = b.val; omega

/-- Window 8's block is its whole array at every point. -/
theorem emb8 (t : Fin cfg0.N) (a : Fin 64) (b : Fin 16) :
    ((cfg0.win 8).blk t).view.emb (ix2 a b) = ix2 a b := by
  have h := idx_facts t
  funext d; apply Fin.ext
  match d with
  | ⟨0, _⟩ => show win0_8.index t (0 : Fin 2) * 64 + 1 * a.val = a.val; omega
  | ⟨1, _⟩ => show win0_8.index t (1 : Fin 2) * 16 + 1 * b.val = b.val; omega

/-- Window 9's block is its whole array at every point. -/
theorem emb9 (t : Fin cfg0.N) (a : Fin 1) (b : Fin 16) :
    ((cfg0.win 9).blk t).view.emb (ix2 a b) = ix2 a b := by
  have h := idx_facts t
  funext d; apply Fin.ext
  match d with
  | ⟨0, _⟩ => show win0_9.index t (0 : Fin 2) * 1 + 1 * a.val = a.val; omega
  | ⟨1, _⟩ => show win0_9.index t (1 : Fin 2) * 16 + 1 * b.val = b.val; omega

/-- Window 10's block at point `t` is rows `3200·t … 3200·t + 3199` of its array. -/
theorem emb10 (t : Fin cfg0.N) (p : Fin 3200) (k : Fin 16) :
    ((cfg0.win 10).blk t).view.emb (ix2 p k) = ix2 (rowOf t p) k := by
  have h := idx_facts t
  funext a; apply Fin.ext
  match a with
  | ⟨0, _⟩ => show win0_10.index t (0 : Fin 2) * 3200 + 1 * p.val = t.val * 3200 + p.val; omega
  | ⟨1, _⟩ => show win0_10.index t (1 : Fin 2) * 16 + 1 * k.val = k.val; omega

/-! ## One point, over ANY contents of the arrays

The statement about one grid point does not depend on what the arrays hold, so it is made for an arbitrary family `A` of
array contents; the arrays the region finds are one instance. -/

section Point

variable (c : Dev nD) (A : (b : Ref sig .tc) → Buf (Elt Ideal) ((c : Thread nD τ).loc b))

/-- Window `w`'s block at point `t`, read off the contents `A`. -/
def blkOf (w : Fin cfg0.W) (t : Fin cfg0.N) : ((cfg0.win w).xblock (cfg0.grid.coords t)).Idx → Elt Ideal (cfg0.win w).elt :=
  ((cfg0.win w).blk t).view.read (Elt Ideal) (A (Pipeline.arrRef spec0 w))

/-- The result array as one function of the contents: `G` of the edge features, the three gathered arrays, the weights,
    and the three bias rows. -/
def GA : S1600000x16.Idx → EReal :=
  G z (A main_arg0) (A main_v0) (A main_v1) (A main_v2)
    (A main_arg3) (fun j => A main_v3 (ix2 (0 : Fin 1) j))
    (A main_arg5) (fun j => A main_v4 (ix2 (0 : Fin 1) j))
    (A main_arg7) (fun q => A main_v5 (ix2 (0 : Fin 1) q))

/-- Row `p` of what the body stores at point `t` is the network of row `3200·t + p` of the arrays. -/
theorem point_eq (t : Fin cfg0.N) (p : Fin 3200) (q : Fin 16) :
    k0_pay1 (F := Ideal) (k0_pay2 (blkOf c A 0 t) (blkOf c A 1 t) (blkOf c A 2 t) (blkOf c A 3 t) (blkOf c A 4 t) (blkOf c A 5 t) (blkOf c A 6 t))
        (k0_pay3 (blkOf c A 7 t)) (blkOf c A 8 t) (blkOf c A 9 t) (ix2 p q)
      = GA c A (ix2 (rowOf t p) q) := by
  rw [pay_apply (blkOf c A 0 t) (blkOf c A 1 t) (blkOf c A 2 t) (blkOf c A 3 t) (blkOf c A 4 t) (blkOf c A 5 t) (blkOf c A 6 t)
      (blkOf c A 7 t) (blkOf c A 8 t) (blkOf c A 9 t) p q]
  have r0 : row (blkOf c A 0 t) p = row (A main_arg0) (rowOf t p) := funext fun k => by
    show A main_arg0 (((cfg0.win 0).blk t).view.emb (ix2 p k)) = A main_arg0 (ix2 (rowOf t p) k)
    rw [emb0 t p k]
  have r1 : row (blkOf c A 1 t) p = row (A main_v0) (rowOf t p) := funext fun k => by
    show A main_v0 (((cfg0.win 1).blk t).view.emb (ix2 p k)) = A main_v0 (ix2 (rowOf t p) k)
    rw [emb1 t p k]
  have r2 : row (blkOf c A 2 t) p = row (A main_v1) (rowOf t p) := funext fun k => by
    show A main_v1 (((cfg0.win 2).blk t).view.emb (ix2 p k)) = A main_v1 (ix2 (rowOf t p) k)
    rw [emb2 t p k]
  have r3 : row (blkOf c A 3 t) p = row (A main_v2) (rowOf t p) := funext fun k => by
    show A main_v2 (((cfg0.win 3).blk t).view.emb (ix2 p k)) = A main_v2 (ix2 (rowOf t p) k)
    rw [emb3 t p k]
  have w0 : mat (blkOf c A 4 t) = mat (A main_arg3) := funext fun a => funext fun b => by
    show A main_arg3 (((cfg0.win 4).blk t).view.emb (ix2 a b)) = A main_arg3 (ix2 a b)
    rw [emb4 t a b]
  have b0 : (fun j : Fin 64 => blkOf c A 5 t (ix2 (0 : Fin 1) j)) = fun j => A main_v3 (ix2 (0 : Fin 1) j) := funext fun j => by
    show A main_v3 (((cfg0.win 5).blk t).view.emb (ix2 (0 : Fin 1) j)) = A main_v3 (ix2 (0 : Fin 1) j)
    rw [emb5 t 0 j]
  have w1 : mat (blkOf c A 6 t) = mat (A main_arg5) := funext fun a => funext fun b => by
    show A main_arg5 (((cfg0.win 6).blk t).view.emb (ix2 a b)) = A main_arg5 (ix2 a b)
    rw [emb6 t a b]
  have b1 : (fun j : Fin 64 => blkOf c A 7 t (ix2 (0 : Fin 1) j)) = fun j => A main_v4 (ix2 (0 : Fin 1) j) := funext fun j => by
    show A main_v4 (((cfg0.win 7).blk t).view.emb (ix2 (0 : Fin 1) j)) = A main_v4 (ix2 (0 : Fin 1) j)
    rw [emb7 t 0 j]
  have w2 : mat (blkOf c A 8 t) = mat (A main_arg7) := funext fun a => funext fun b => by
    show A main_arg7 (((cfg0.win 8).blk t).view.emb (ix2 a b)) = A main_arg7 (ix2 a b)
    rw [emb8 t a b]
  have b2 : (fun q : Fin 16 => blkOf c A 9 t (ix2 (0 : Fin 1) q)) = fun q => A main_v5 (ix2 (0 : Fin 1) q) := funext fun q => by
    show A main_v5 (((cfg0.win 9).blk t).view.emb (ix2 (0 : Fin 1) q)) = A main_v5 (ix2 (0 : Fin 1) q)
    rw [emb9 t 0 q]
  rw [r0, r1, r2, r3, w0, b0, w1, b1, w2, b2]
  rfl

end Point

/-- The kernel's result array as one function of the arrays the region finds. -/
def Gk (c : Dev nD) : S1600000x16.Idx → EReal := GA c (V m c)

/-- WHAT POINT `t` WRITES BACK is block `t` of that function. -/
theorem flushed_eq (c : Dev nD) (t : Fin cfg0.N) :
    (dats m 0 c).flushed 10 t = ((cfg0.win 10).blk t).view.read (Elt Ideal) (Gk m c) := by
  rw [Value.flushed10]
  unfold out0_10
  rw [View.canon_unit_zero hz]
  simp only [View.ld_unit_zero (S := S3200x16) hz, View.ld_unit_zero (S := S64x64) hz, View.ld_unit_zero (S := S1x64) hz,
    View.ld_unit_zero (S := S64x16) hz, View.ld_unit_zero (S := S1x16) hz]
  funext y
  obtain ⟨p, q, rfl⟩ : ∃ (p : Fin 3200) (q : Fin 16), y = ix2 p q := ⟨y 0, y 1, eq_ix2 y⟩
  show k0_pay1 (F := Ideal) (k0_pay2 (iblk m c 0 t) (iblk m c 1 t) (iblk m c 2 t) (iblk m c 3 t) (iblk m c 4 t) (iblk m c 5 t) (iblk m c 6 t))
      (k0_pay3 (iblk m c 7 t)) (iblk m c 8 t) (iblk m c 9 t) (ix2 p q)
    = Gk m c (((cfg0.win 10).blk t).view.emb (ix2 p q))
  rw [emb10 t p q]
  exact point_eq c (V m c) t p q

/-- An index of the array is in point `t`'s block iff each coordinate is in the block's range on its axis. -/
theorem mem_blk (t : Fin cfg0.N) (i : S1600000x16.Idx) :
    i ∈ ((cfg0.win 10).blk t).view.set ↔ ∀ a : Fin 2, win0_10.index t a * S3200x16.size a ≤ (i a).val ∧ (i a).val < win0_10.index t a * S3200x16.size a + S3200x16.size a := by
  show i ∈ ((View.whole main_v6).slice (win0_10.rect t)).set ↔ _
  rw [View.set_slice_whole, Rect.mem_set_unit]
  exact Iff.rfl

/-- The 500 blocks tile the array: row n is in block n / 3200. -/
theorem cover (i : S1600000x16.Idx) :
    ∃ t : Fin cfg0.N, (cfg0.win 10).flush t = true ∧ i ∈ ((cfg0.win 10).blk t).view.set := by
  have hi0 : (i 0).val < 1600000 := (i 0).isLt
  have hi1 : (i 1).val < 16 := (i 1).isLt
  have hN : cfg0.N = 500 := N_0
  refine ⟨⟨(i 0).val / 3200, by rw [hN]; omega⟩, flush0_10 _, ?_⟩
  rw [mem_blk]
  have h := idx_facts ⟨(i 0).val / 3200, by rw [hN]; omega⟩
  intro a
  match a with
  | ⟨0, _⟩ =>
    show win0_10.index _ (0 : Fin 2) * 3200 ≤ (i 0).val ∧ (i 0).val < win0_10.index _ (0 : Fin 2) * 3200 + 3200
    rw [h.2.2.2.2.2.2.2.2.2.2.2.2.2.2.2.2.2.2.2.2.1]
    show (i 0).val / 3200 * 3200 ≤ (i 0).val ∧ (i 0).val < (i 0).val / 3200 * 3200 + 3200
    omega
  | ⟨1, _⟩ =>
    show win0_10.index _ (1 : Fin 2) * 16 ≤ (i 1).val ∧ (i 1).val < win0_10.index _ (1 : Fin 2) * 16 + 16
    rw [h.2.2.2.2.2.2.2.2.2.2.2.2.2.2.2.2.2.2.2.2.2]
    omega

/-- THE ARRAY after the run is that function. -/
theorem final (c : Dev nD) : (dats m 0 c).arrAt 10 cfg0.N = Gk m c :=
  (dats m 0 c).arrAt_eq_of_cover 10 (Gk m c) (fun t _ => flushed_eq m c t) cover

/-- The kernel's run: the result array at `Gk`, the arguments unchanged. -/
theorem run : θ_run defs (onTc (τ := τ) (main (F := Ideal))) ⟨m, fun _ => 0, ρ⟩ fun r => ∀ c : Dev nD,
      r.2.mem ((c : Thread nD τ).loc main_v6) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.KernelEntry.lean ====
/-
  What the region finds in the arrays the host operations before it wrote.

  Before the kernel runs, the program gathers a row of the node table per edge for the receiver and for the sender and a
  row of the graph table for the edge's graph (each a bounds-checked take: the index wrapped if negative, the gather, and
  a fill value where the index is out of range), and stands each bias vector up as a one-row matrix. Reading the
  operations back, each of those six arrays is one function of the argument arrays; the kernel's result is then one
  function of the arguments alone.
-/
import proofs.«160168_j83631603188044_1_alg».proof.Proof.KernelValue
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx Cert.EdgeMlp Cert.KernelIdeal.BlockValue Cert.KernelIdeal.ArrayValue

/-- A take's index array made ready for the gather: an index below zero is moved up by the table's height `n`, and the
    array is stood up as a column. -/
def wrapIdx (n : BitVec 32) (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 n))) idx)

/-- Which edges' indices are in range, zero to `last`. -/
def inRange (last : BitVec 32) (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 last)))))
    (constantI S_ 1 1#1) reducesTo_S1600000x1_S1600000_d1 h_S_

/-- Rows of the node table, one per edge: the gathered row where the edge's index is in range, the fill value elsewhere. -/
def takeNode (x : FVec Ideal S100000x16 .f32) (idx : IVec S1600000 32) : FVec Ideal S1600000x16 .f32 :=
  select (broadcastInDim S1600000x16 ![0] bcast_S1600000_S1600000x16_0 (inRange 99999#32 (wrapIdx 100000#32 idx)))
    (Host.gather gather_S100000x16_S1600000x1_S1600000x16_1_0_n_n_0_1_116 x (wrapIdx 100000#32 idx))
    (broadcastInDim S1600000x16 ![] bcast_S_S1600000x16 (constant (F := Ideal) S_ .f32 0x7FC00000#32))

/-- Rows of the graph table, one per edge, likewise. -/
def takeGraph (x : FVec Ideal S8x16 .f32) (idx : IVec S1600000 32) : FVec Ideal S1600000x16 .f32 :=
  select (broadcastInDim S1600000x16 ![0] bcast_S1600000_S1600000x16_0 (inRange 7#32 (wrapIdx 8#32 idx)))
    (Host.gather gather_S8x16_S1600000x1_S1600000x16_1_0_n_n_0_1_116 x (wrapIdx 8#32 idx))
    (broadcastInDim S1600000x16 ![] bcast_S_S1600000x16 (constant (F := Ideal) S_ .f32 0x7FC00000#32))

variable (m : (ℓ : Loc nD τ sig) → Buf (Elt Ideal) ℓ)

/-- A value written through a typed reference and read back through it is the value. -/
theorem ofBuf_toBuf {sig : RefSig} {T : BufTy} {Val : EltTy → Type} (x : StableHlo.TRef sig T) (v : T.Contents Val) :
    x.ofBuf (x.toBuf v) = v := by
  obtain ⟨r, h, h2, h3⟩ := x
  subst h
  rfl

/-! A launch array read through its typed reference is the array; a value written through the result's typed reference is
the value: the reference's type IS the value's type. -/

theorem read_main_arg1 (c : Dev nD) :
    (StableHlo.TRef.of main_arg1 : StableHlo.TRef sig ⟨S100000x16, .f32⟩).ofBuf (m (c, Proc.devRef .tc main_arg1))
      = (m ((c : Thread nD τ).loc main_arg1) : (⟨S100000x16, .f32⟩ : BufTy).Contents (Elt Ideal)) := rfl
theorem read_main_arg2 (c : Dev nD) :
    (StableHlo.TRef.of main_arg2 : StableHlo.TRef sig ⟨S8x16, .f32⟩).ofBuf (m (c, Proc.devRef .tc main_arg2))
      = (m ((c : Thread nD τ).loc main_arg2) : (⟨S8x16, .f32⟩ : BufTy).Contents (Elt Ideal)) := rfl
theorem read_main_arg9 (c : Dev nD) :
    (StableHlo.TRef.of main_arg9 : StableHlo.TRef sig ⟨S1600000, .i32⟩).ofBuf (m (c, Proc.devRef .tc main_arg9))
      = (m ((c : Thread nD τ).loc main_arg9) : (⟨S1600000, .i32⟩ : BufTy).Contents (Elt Ideal)) := rfl
theorem read_main_arg10 (c : Dev nD) :
    (StableHlo.TRef.of main_arg10 : StableHlo.TRef sig ⟨S1600000, .i32⟩).ofBuf (m (c, Proc.devRef .tc main_arg10))
      = (m ((c : Thread nD τ).loc main_arg10) : (⟨S1600000, .i32⟩ : BufTy).Contents (Elt Ideal)) := rfl
theorem read_main_arg11 (c : Dev nD) :
    (StableHlo.TRef.of main_arg11 : StableHlo.TRef sig ⟨S1600000, .i32⟩).ofBuf (m (c, Proc.devRef .tc main_arg11))
      = (m ((c : Thread nD τ).loc main_arg11) : (⟨S1600000, .i32⟩ : BufTy).Contents (Elt Ideal)) := rfl
theorem write_main_v0 (w : (⟨S1600000x16, .f32⟩ : BufTy).Contents (Elt Ideal)) :
    (StableHlo.TRef.of main_v0 : StableHlo.TRef sig ⟨S1600000x16, .f32⟩).toBuf w = w := rfl
theorem write_main_v1 (w : (⟨S1600000x16, .f32⟩ : BufTy).Contents (Elt Ideal)) :
    (StableHlo.TRef.of main_v1 : StableHlo.TRef sig ⟨S1600000x16, .f32⟩).toBuf w = w := rfl
theorem write_main_v2 (w : (⟨S1600000x16, .f32⟩ : BufTy).Contents (Elt Ideal)) :
    (StableHlo.TRef.of main_v2 : StableHlo.TRef sig ⟨S1600000x16, .f32⟩).toBuf w = w := rfl

set_option maxHeartbeats 1000000 in
/-- The receivers' rows, as the operations leave them: the take of the arguments, each read and the result written through its typed
    reference. -/
theorem V_main_v0_raw (c : Dev nD) :
    V m c main_v0 = (StableHlo.TRef.of main_v0 : StableHlo.TRef sig ⟨S1600000x16, .f32⟩).toBuf
      (takeNode ((StableHlo.TRef.of main_arg1 : StableHlo.TRef sig ⟨S100000x16, .f32⟩).ofBuf (m (c, Proc.devRef .tc main_arg1)))
        ((StableHlo.TRef.of main_arg10 : StableHlo.TRef sig ⟨S1600000, .i32⟩).ofBuf (m (c, Proc.devRef .tc main_arg10)))) := by
  dsimp only [V]
  simp only [hostOps0, hostOps0_1, hostOps0_2, hostOps0_3, List.flatten_cons, List.flatten_nil, List.append_nil, List.cons_append,
    List.nil_append]
  after_results_simp
  simp only [ofBuf_toBuf]
  rfl

/-- The receivers' rows. -/
theorem V_main_v0 (c : Dev nD) :
    V m c main_v0 = takeNode (m ((c : Thread nD τ).loc main_arg1)) (m ((c : Thread nD τ).loc main_arg10)) :=
  (V_main_v0_raw m c).trans (by rw [read_main_arg1, read_main_arg10]; exact write_main_v0 _)

set_option maxHeartbeats 1000000 in
/-- The senders' rows, as the operations leave them: the take of the arguments, each read and the result written through its typed
    reference. -/
theorem V_main_v1_raw (c : Dev nD) :
    V m c main_v1 = (StableHlo.TRef.of main_v1 : StableHlo.TRef sig ⟨S1600000x16, .f32⟩).toBuf
      (takeNode ((StableHlo.TRef.of main_arg1 : StableHlo.TRef sig ⟨S100000x16, .f32⟩).ofBuf (m (c, Proc.devRef .tc main_arg1)))
        ((StableHlo.TRef.of main_arg9 : StableHlo.TRef sig ⟨S1600000, .i32⟩).ofBuf (m (c, Proc.devRef .tc main_arg9)))) := by
  dsimp only [V]
  simp only [hostOps0, hostOps0_1, hostOps0_2, hostOps0_3, List.flatten_cons, List.flatten_nil, List.append_nil, List.cons_append,
    List.nil_append]
  after_results_simp
  simp only [ofBuf_toBuf]
  rfl

/-- The senders' rows. -/
theorem V_main_v1 (c : Dev nD) :
    V m c main_v1 = takeNode (m ((c : Thread nD τ).loc main_arg1)) (m ((c : Thread nD τ).loc main_arg9)) :=
  (V_main_v1_raw m c).trans (by rw [read_main_arg1, read_main_arg9]; exact write_main_v1 _)

set_option maxHeartbeats 1000000 in
/-- The graphs' rows, as the operations leave them: the take of the arguments, each read and the result written through its typed
    reference. -/
theorem V_main_v2_raw (c : Dev nD) :
    V m c main_v2 = (StableHlo.TRef.of main_v2 : StableHlo.TRef sig ⟨S1600000x16, .f32⟩).toBuf
      (takeGraph ((StableHlo.TRef.of main_arg2 : StableHlo.TRef sig ⟨S8x16, .f32⟩).ofBuf (m (c, Proc.devRef .tc main_arg2)))
        ((StableHlo.TRef.of main_arg11 : StableHlo.TRef sig ⟨S1600000, .i32⟩).ofBuf (m (c, Proc.devRef .tc main_arg11)))) := by
  dsimp only [V]
  simp only [hostOps0, hostOps0_1, hostOps0_2, hostOps0_3, List.flatten_cons, List.flatten_nil, List.append_nil, List.cons_append,
    List.nil_append]
  after_results_simp
  simp only [ofBuf_toBuf]
  rfl

/-- The graphs' rows. -/
theorem V_main_v2 (c : Dev nD) :
    V m c main_v2 = takeGraph (m ((c : Thread nD τ).loc main_arg2)) (m ((c : Thread nD τ).loc main_arg11)) :=
  (V_main_v2_raw m c).trans (by rw [read_main_arg2, read_main_arg11]; exact write_main_v2 _)

set_option maxHeartbeats 1000000 in
/-- The first bias as a row. -/
theorem V_main_v3 (c : Dev nD) :
    V m c main_v3 = fun i => shapeCast S1x64 (m ((c : Thread nD τ).loc main_arg4)) shapeCasts_S64_S1x64 i := by
  dsimp only [V]
  simp only [hostOps0, hostOps0_1, hostOps0_2, hostOps0_3, List.flatten_cons, List.flatten_nil, List.append_nil, List.cons_append,
    List.nil_append]
  after_results_simp
  rfl

set_option maxHeartbeats 1000000 in
/-- The second bias as a row. -/
theorem V_main_v4 (c : Dev nD) :
    V m c main_v4 = fun i => shapeCast S1x64 (m ((c : Thread nD τ).loc main_arg6)) shapeCasts_S64_S1x64 i := by
  dsimp only [V]
  simp only [hostOps0, hostOps0_1, hostOps0_2, hostOps0_3, List.flatten_cons, List.flatten_nil, List.append_nil, List.cons_append,
    List.nil_append]
  after_results_simp
  rfl

set_option maxHeartbeats 1000000 in
/-- The output bias as a row. -/
theorem V_main_v5 (c : Dev nD) :
    V m c main_v5 = fun i => shapeCast S1x16 (m ((c : Thread nD τ).loc main_arg8)) shapeCasts_S16_S1x16 i := by
  dsimp only [V]
  simp only [hostOps0, hostOps0_1, hostOps0_2, hostOps0_3, List.flatten_cons, List.flatten_nil, List.append_nil, List.cons_append,
    List.nil_append]
  after_results_simp
  rfl

/-- THE KERNEL'S RESULT as one function of the argument arrays. -/
def Gargs (c : Dev nD) : S1600000x16.Idx → EReal :=
  G z (m ((c : Thread nD τ).loc main_arg0))
    (takeNode (m ((c : Thread nD τ).loc main_arg1)) (m ((c : Thread nD τ).loc main_arg10)))
    (takeNode (m ((c : Thread nD τ).loc main_arg1)) (m ((c : Thread nD τ).loc main_arg9)))
    (takeGraph (m ((c : Thread nD τ).loc main_arg2)) (m ((c : Thread nD τ).loc main_arg11)))
    (m ((c : Thread nD τ).loc main_arg3)) (vec (m ((c : Thread nD τ).loc main_arg4)))
    (m ((c : Thread nD τ).loc main_arg5)) (vec (m ((c : Thread nD τ).loc main_arg6)))
    (m ((c : Thread nD τ).loc main_arg7)) (vec (m ((c : Thread nD τ).loc main_arg8)))

theorem Gk_eq (c : Dev nD) : Gk m c = Gargs m c := by
  have e3 : (fun j : Fin 64 => V m c main_v3 (ix2 (0 : Fin 1) j)) = vec (m ((c : Thread nD τ).loc main_arg4)) := funext fun j => by
    rw [V_main_v3]; exact shapeCast_a_1a_apply _ _ 0 j
  have e4 : (fun j : Fin 64 => V m c main_v4 (ix2 (0 : Fin 1) j)) = vec (m ((c : Thread nD τ).loc main_arg6)) := funext fun j => by
    rw [V_main_v4]; exact shapeCast_a_1a_apply _ _ 0 j
  have e5 : (fun q : Fin 16 => V m c main_v5 (ix2 (0 : Fin 1) q)) = vec (m ((c : Thread nD τ).loc main_arg8)) := funext fun q => by
    rw [V_main_v5]; exact shapeCast_a_1a_apply _ _ 0 q
  unfold Gk GA Gargs
  rw [e3, e4, e5, V_main_arg0 m c, V_main_v0 m c, V_main_v1 m c, V_main_v2 m c, V_main_arg3 m c, V_main_arg5 m c, V_main_arg7 m c]

end Cert.KernelIdeal.Entry

end
-- ==== Proof.RefRun.lean ====
/-
  The reference program's run, read back as a straight line of host operations.

  The reference gathers a row of the node table per edge for its receiver and for its sender and a row of the graph
  table for its graph (each gather the 23 operations of a bounds-checked take: the index wrapped if negative, the
  in-range mask, the gather, the fill where out of range), joins the edge's own features with the three gathered rows
  into a 64-wide row, and applies three dense layers, the first two rectified. Its @main is that line of 88 operations —
  the called functions' operations at their call sites —, every weakly fair execution runs it to the end, and each array
  then holds the line's fold over the contents the program was launched with.
-/
import proofs.«160168_j83631603188044_1_alg».proof.Proof.Gen.ReferenceIdeal
import Idealize.ShloMosaic.Lib.StableHlo.Run
import Idealize.ShloMosaic.Lib.Pipeline.Regions

noncomputable section

namespace Cert.ReferenceIdeal.Line

open Cert.ReferenceIdeal Cert.ReferenceIdeal.Gen Idealize.ShloMosaic Idealize.ShloMosaic.TcCoe Idealize.SL.Sem
open Idealize.ShloMosaic.StableHlo

variable {F : FTy → Type} [FloatOps F]

/-- The receivers' take: rows of the node table at the receiver indices. -/
abbrev takeRecv : List (HloOp τ sig (Elt F)) :=
  [ StableHlo.nullary main_call0_c ((constantI S_ 32 0#32) : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_arg10 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_arg10 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_arg10 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call0_v5 main_call0_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call0_v12 main_call0_v14 ((broadcastInDim S1600000x16 ![0] bcast_S1600000_S1600000x16_0) : (⟨S1600000, .i1⟩ : BufTy).Contents (Elt F) → (⟨S1600000x16, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1600000x16 ![] bcast_S_S1600000x16) : (⟨S_, .f32⟩ : BufTy).Contents (Elt F) → (⟨S1600000x16, .f32⟩ : BufTy).Contents (Elt F)),
    StableHlo.ternary main_call0_v14 main_call0_v13 main_call0_v15 main_v0 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)) ]

/-- The senders' take: rows of the node table at the sender indices. -/
abbrev takeSend : List (HloOp τ sig (Elt F)) :=
  [ StableHlo.nullary main_call1_c ((constantI S_ 32 0#32) : (⟨S_, .i32⟩ : BufTy).Contents (Elt F)),
    StableHlo.unary main_call1_c main_call1_v0 ((broadcastInDim S1600000 ![] bcast_S_S1600000) : (⟨S_, .i32⟩ : BufTy).Contents (Elt F) → (⟨S1600000, .i32⟩ : BufTy).Contents (Elt F)),
    StableHlo.binary main_arg9 main_call1_v0 main_call1_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S1600000 ![] bcast_S_S1600000) : (⟨S_, .i32⟩ : BufTy).Contents (Elt F) → (⟨S1600000, .i32⟩ : BufTy).Contents (Elt F)),
    StableHlo.binary main_arg9 main_call1_v2 main_call1_v3 (addi : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_arg9 main_call1_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 ((broadcastInDim S1600000x1 ![0] bcast_S1600000_S1600000x1_0) : (⟨S1600000, .i32⟩ : BufTy).Contents (Elt F) → (⟨S1600000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S1600000x1 ![] bcast_S_S1600000x1) : (⟨S_, .i32⟩ : BufTy).Contents (Elt F) → (⟨S1600000x1, .i32⟩ : BufTy).Contents (Elt F)),
    StableHlo.binary main_call1_v5 main_call1_v6 main_call1_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call1_v5 main_call1_v9 main_call1_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 (andi : (⟨S1600000x1, .i1⟩ : BufTy).Contents (Elt F) → (⟨S1600000x1, .i1⟩ : BufTy).Contents (Elt F) → (⟨S1600000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call1_v5 main_call1_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call1_v12 main_call1_v14 ((broadcastInDim S1600000x16 ![0] bcast_S1600000_S1600000x16_0) : (⟨S1600000, .i1⟩ : BufTy).Contents (Elt F) → (⟨S1600000x16, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S1600000x16 ![] bcast_S_S1600000x16) : (⟨S_, .f32⟩ : BufTy).Contents (Elt F) → (⟨S1600000x16, .f32⟩ : BufTy).Contents (Elt F)),
    StableHlo.ternary main_call1_v14 main_call1_v13 main_call1_v15 main_v1 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)) ]

/-- The graphs' take: rows of the graph table at the edges' graph indices. -/
abbrev takeGlob : List (HloOp τ sig (Elt F)) :=
  [ StableHlo.nullary main_call2_c ((constantI S_ 32 0#32) : (⟨S_, .i32⟩ : BufTy).Contents (Elt F)),
    StableHlo.unary main_call2_c main_call2_v0 ((broadcastInDim S1600000 ![] bcast_S_S1600000) : (⟨S_, .i32⟩ : BufTy).Contents (Elt F) → (⟨S1600000, .i32⟩ : BufTy).Contents (Elt F)),
    StableHlo.binary main_arg11 main_call2_v0 main_call2_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call2_c_0 ((constantI S_ 32 8#32) : (⟨S_, .i32⟩ : BufTy).Contents (Elt F)),
    StableHlo.unary main_call2_c_0 main_call2_v2 ((broadcastInDim S1600000 ![] bcast_S_S1600000) : (⟨S_, .i32⟩ : BufTy).Contents (Elt F) → (⟨S1600000, .i32⟩ : BufTy).Contents (Elt F)),
    StableHlo.binary main_arg11 main_call2_v2 main_call2_v3 (addi : (⟨S1600000, .i32⟩ : BufTy).Contents (Elt F) → (⟨S1600000, .i32⟩ : BufTy).Contents (Elt F) → (⟨S1600000, .i32⟩ : BufTy).Contents (Elt F)),
    StableHlo.ternary main_call2_v1 main_call2_v3 main_arg11 main_call2_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call2_v4 main_call2_v5 ((broadcastInDim S1600000x1 ![0] bcast_S1600000_S1600000x1_0) : (⟨S1600000, .i32⟩ : BufTy).Contents (Elt F) → (⟨S1600000x1, .i32⟩ : BufTy).Contents (Elt F)),
    StableHlo.nullary main_call2_c_1 ((constantI S1 32 7#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S1600000x1 ![] bcast_S_S1600000x1) : (⟨S_, .i32⟩ : BufTy).Contents (Elt F) → (⟨S1600000x1, .i32⟩ : BufTy).Contents (Elt F)),
    StableHlo.binary main_call2_v5 main_call2_v6 main_call2_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call2_v5 main_call2_v9 main_call2_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call2_v7 main_call2_v10 main_call2_v11 (andi : (⟨S1600000x1, .i1⟩ : BufTy).Contents (Elt F) → (⟨S1600000x1, .i1⟩ : BufTy).Contents (Elt F) → (⟨S1600000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg2 main_call2_v5 main_call2_v13 ((fun x i => Host.gather gather_S8x16_S1600000x1_S1600000x16_1_0_n_n_0_1_116 x i) : (⟨S8x16, .f32⟩ : BufTy).Contents (Elt F) → (⟨S1600000x1, .i32⟩ : BufTy).Contents (Elt F) → (⟨S1600000x16, .f32⟩ : BufTy).Contents (Elt F)),
    StableHlo.unary main_call2_v12 main_call2_v14 ((broadcastInDim S1600000x16 ![0] bcast_S1600000_S1600000x16_0) : (⟨S1600000, .i1⟩ : BufTy).Contents (Elt F) → (⟨S1600000x16, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S1600000x16 ![] bcast_S_S1600000x16) : (⟨S_, .f32⟩ : BufTy).Contents (Elt F) → (⟨S1600000x16, .f32⟩ : BufTy).Contents (Elt F)),
    StableHlo.ternary main_call2_v14 main_call2_v13 main_call2_v15 main_v2 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)) ]

/-- The join of the four 16-wide arrays and the three dense layers. -/
abbrev layers : List (HloOp τ sig (Elt F)) :=
  [ StableHlo.nary ![main_arg0, main_v0, main_v1, main_v2] main_v3 (fun u => concatenate S1600000x64 1 [⟨S1600000x16, u 0⟩, ⟨S1600000x16, u 1⟩, ⟨S1600000x16, u 2⟩, ⟨S1600000x16, u 3⟩] concatenates_S1600000x16_S1600000x16_S1600000x16_S1600000x16_S1600000x64_d1),
    StableHlo.binary main_v3 main_arg3 main_v4 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1600000x64 ![0, 1] bcast_S1x64_S1600000x64_0_1 : (⟨S1x64, .f32⟩ : BufTy).Contents (Elt F) → (⟨S1600000x64, .f32⟩ : BufTy).Contents (Elt F)),
    StableHlo.binary main_v4 main_v6 main_v7 (addf : (⟨S1600000x64, .f32⟩ : BufTy).Contents (Elt F) → (⟨S1600000x64, .f32⟩ : BufTy).Contents (Elt F) → (⟨S1600000x64, .f32⟩ : BufTy).Contents (Elt F)),
    StableHlo.nullary main_call3_cst (constant S_ .f32 0x00000000#32 : (⟨S_, .f32⟩ : BufTy).Contents (Elt F)),
    StableHlo.unary main_call3_cst main_call3_v0 (broadcastInDim S1600000x64 ![] bcast_S_S1600000x64 : (⟨S_, .f32⟩ : BufTy).Contents (Elt F) → (⟨S1600000x64, .f32⟩ : BufTy).Contents (Elt F)),
    StableHlo.binary main_v7 main_call3_v0 main_v8 (maximumf : (⟨S1600000x64, .f32⟩ : BufTy).Contents (Elt F) → (⟨S1600000x64, .f32⟩ : BufTy).Contents (Elt F) → (⟨S1600000x64, .f32⟩ : BufTy).Contents (Elt F)),
    StableHlo.binary main_v8 main_arg5 main_v9 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S1600000x64 ![0, 1] bcast_S1x64_S1600000x64_0_1 : (⟨S1x64, .f32⟩ : BufTy).Contents (Elt F) → (⟨S1600000x64, .f32⟩ : BufTy).Contents (Elt F)),
    StableHlo.binary main_v9 main_v11 main_v12 (addf : (⟨S1600000x64, .f32⟩ : BufTy).Contents (Elt F) → (⟨S1600000x64, .f32⟩ : BufTy).Contents (Elt F) → (⟨S1600000x64, .f32⟩ : BufTy).Contents (Elt F)),
    StableHlo.nullary main_call4_cst (constant S_ .f32 0x00000000#32 : (⟨S_, .f32⟩ : BufTy).Contents (Elt F)),
    StableHlo.unary main_call4_cst main_call4_v0 (broadcastInDim S1600000x64 ![] bcast_S_S1600000x64 : (⟨S_, .f32⟩ : BufTy).Contents (Elt F) → (⟨S1600000x64, .f32⟩ : BufTy).Contents (Elt F)),
    StableHlo.binary main_v12 main_call4_v0 main_v13 (maximumf : (⟨S1600000x64, .f32⟩ : BufTy).Contents (Elt F) → (⟨S1600000x64, .f32⟩ : BufTy).Contents (Elt F) → (⟨S1600000x64, .f32⟩ : BufTy).Contents (Elt F)),
    StableHlo.binary main_v13 main_arg7 main_v14 ((fun l r => Host.dotGeneral dot_S1600000x64_S64x16_S1600000x16_1_0_0_1_n_n none l r) : (⟨S1600000x64, .f32⟩ : BufTy).Contents (Elt F) → (⟨S64x16, .f32⟩ : BufTy).Contents (Elt F) → (⟨S1600000x16, .f32⟩ : BufTy).Contents (Elt F)),
    StableHlo.unary main_arg8 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S1600000x16 ![0, 1] bcast_S1x16_S1600000x16_0_1 : (⟨S1x16, .f32⟩ : BufTy).Contents (Elt F) → (⟨S1600000x16, .f32⟩ : BufTy).Contents (Elt F)),
    StableHlo.binary main_v14 main_v16 main_v17 (addf : (⟨S1600000x16, .f32⟩ : BufTy).Contents (Elt F) → (⟨S1600000x16, .f32⟩ : BufTy).Contents (Elt F) → (⟨S1600000x16, .f32⟩ : BufTy).Contents (Elt F)) ]

/-- The three takes, one after the other: 69 operations. -/
abbrev takes : List (HloOp τ sig (Elt F)) :=
  [ StableHlo.nullary main_call0_c ((constantI S_ 32 0#32) : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_arg10 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_arg10 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_arg10 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call0_v5 main_call0_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call0_v12 main_call0_v14 ((broadcastInDim S1600000x16 ![0] bcast_S1600000_S1600000x16_0) : (⟨S1600000, .i1⟩ : BufTy).Contents (Elt F) → (⟨S1600000x16, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1600000x16 ![] bcast_S_S1600000x16) : (⟨S_, .f32⟩ : BufTy).Contents (Elt F) → (⟨S1600000x16, .f32⟩ : BufTy).Contents (Elt F)),
    StableHlo.ternary main_call0_v14 main_call0_v13 main_call0_v15 main_v0 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)),
    StableHlo.nullary main_call1_c ((constantI S_ 32 0#32) : (⟨S_, .i32⟩ : BufTy).Contents (Elt F)),
    StableHlo.unary main_call1_c main_call1_v0 ((broadcastInDim S1600000 ![] bcast_S_S1600000) : (⟨S_, .i32⟩ : BufTy).Contents (Elt F) → (⟨S1600000, .i32⟩ : BufTy).Contents (Elt F)),
    StableHlo.binary main_arg9 main_call1_v0 main_call1_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S1600000 ![] bcast_S_S1600000) : (⟨S_, .i32⟩ : BufTy).Contents (Elt F) → (⟨S1600000, .i32⟩ : BufTy).Contents (Elt F)),
    StableHlo.binary main_arg9 main_call1_v2 main_call1_v3 (addi : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_arg9 main_call1_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 ((broadcastInDim S1600000x1 ![0] bcast_S1600000_S1600000x1_0) : (⟨S1600000, .i32⟩ : BufTy).Contents (Elt F) → (⟨S1600000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S1600000x1 ![] bcast_S_S1600000x1) : (⟨S_, .i32⟩ : BufTy).Contents (Elt F) → (⟨S1600000x1, .i32⟩ : BufTy).Contents (Elt F)),
    StableHlo.binary main_call1_v5 main_call1_v6 main_call1_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call1_v5 main_call1_v9 main_call1_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 (andi : (⟨S1600000x1, .i1⟩ : BufTy).Contents (Elt F) → (⟨S1600000x1, .i1⟩ : BufTy).Contents (Elt F) → (⟨S1600000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call1_v5 main_call1_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call1_v12 main_call1_v14 ((broadcastInDim S1600000x16 ![0] bcast_S1600000_S1600000x16_0) : (⟨S1600000, .i1⟩ : BufTy).Contents (Elt F) → (⟨S1600000x16, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S1600000x16 ![] bcast_S_S1600000x16) : (⟨S_, .f32⟩ : BufTy).Contents (Elt F) → (⟨S1600000x16, .f32⟩ : BufTy).Contents (Elt F)),
    StableHlo.ternary main_call1_v14 main_call1_v13 main_call1_v15 main_v1 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)),
    StableHlo.nullary main_call2_c ((constantI S_ 32 0#32) : (⟨S_, .i32⟩ : BufTy).Contents (Elt F)),
    StableHlo.unary main_call2_c main_call2_v0 ((broadcastInDim S1600000 ![] bcast_S_S1600000) : (⟨S_, .i32⟩ : BufTy).Contents (Elt F) → (⟨S1600000, .i32⟩ : BufTy).Contents (Elt F)),
    StableHlo.binary main_arg11 main_call2_v0 main_call2_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call2_c_0 ((constantI S_ 32 8#32) : (⟨S_, .i32⟩ : BufTy).Contents (Elt F)),
    StableHlo.unary main_call2_c_0 main_call2_v2 ((broadcastInDim S1600000 ![] bcast_S_S1600000) : (⟨S_, .i32⟩ : BufTy).Contents (Elt F) → (⟨S1600000, .i32⟩ : BufTy).Contents (Elt F)),
    StableHlo.binary main_arg11 main_call2_v2 main_call2_v3 (addi : (⟨S1600000, .i32⟩ : BufTy).Contents (Elt F) → (⟨S1600000, .i32⟩ : BufTy).Contents (Elt F) → (⟨S1600000, .i32⟩ : BufTy).Contents (Elt F)),
    StableHlo.ternary main_call2_v1 main_call2_v3 main_arg11 main_call2_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call2_v4 main_call2_v5 ((broadcastInDim S1600000x1 ![0] bcast_S1600000_S1600000x1_0) : (⟨S1600000, .i32⟩ : BufTy).Contents (Elt F) → (⟨S1600000x1, .i32⟩ : BufTy).Contents (Elt F)),
    StableHlo.nullary main_call2_c_1 ((constantI S1 32 7#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S1600000x1 ![] bcast_S_S1600000x1) : (⟨S_, .i32⟩ : BufTy).Contents (Elt F) → (⟨S1600000x1, .i32⟩ : BufTy).Contents (Elt F)),
    StableHlo.binary main_call2_v5 main_call2_v6 main_call2_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call2_v5 main_call2_v9 main_call2_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call2_v7 main_call2_v10 main_call2_v11 (andi : (⟨S1600000x1, .i1⟩ : BufTy).Contents (Elt F) → (⟨S1600000x1, .i1⟩ : BufTy).Contents (Elt F) → (⟨S1600000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg2 main_call2_v5 main_call2_v13 ((fun x i => Host.gather gather_S8x16_S1600000x1_S1600000x16_1_0_n_n_0_1_116 x i) : (⟨S8x16, .f32⟩ : BufTy).Contents (Elt F) → (⟨S1600000x1, .i32⟩ : BufTy).Contents (Elt F) → (⟨S1600000x16, .f32⟩ : BufTy).Contents (Elt F)),
    StableHlo.unary main_call2_v12 main_call2_v14 ((broadcastInDim S1600000x16 ![0] bcast_S1600000_S1600000x16_0) : (⟨S1600000, .i1⟩ : BufTy).Contents (Elt F) → (⟨S1600000x16, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S1600000x16 ![] bcast_S_S1600000x16) : (⟨S_, .f32⟩ : BufTy).Contents (Elt F) → (⟨S1600000x16, .f32⟩ : BufTy).Contents (Elt F)),
    StableHlo.ternary main_call2_v14 main_call2_v13 main_call2_v15 main_v2 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)) ]

/-- @main's 88 operations, in order. -/
abbrev ops : List (HloOp τ sig (Elt F)) :=
  [ StableHlo.nullary main_call0_c ((constantI S_ 32 0#32) : (⟨S_, .i32⟩ : BufTy).Contents (Elt F)),
    StableHlo.unary main_call0_c main_call0_v0 ((broadcastInDim S1600000 ![] bcast_S_S1600000) : (⟨S_, .i32⟩ : BufTy).Contents (Elt F) → (⟨S1600000, .i32⟩ : BufTy).Contents (Elt F)),
    StableHlo.binary main_arg10 main_call0_v0 main_call0_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call0_c_0 ((constantI S_ 32 100000#32) : (⟨S_, .i32⟩ : BufTy).Contents (Elt F)),
    StableHlo.unary main_call0_c_0 main_call0_v2 ((broadcastInDim S1600000 ![] bcast_S_S1600000) : (⟨S_, .i32⟩ : BufTy).Contents (Elt F) → (⟨S1600000, .i32⟩ : BufTy).Contents (Elt F)),
    StableHlo.binary main_arg10 main_call0_v2 main_call0_v3 (addi : (⟨S1600000, .i32⟩ : BufTy).Contents (Elt F) → (⟨S1600000, .i32⟩ : BufTy).Contents (Elt F) → (⟨S1600000, .i32⟩ : BufTy).Contents (Elt F)),
    StableHlo.ternary main_call0_v1 main_call0_v3 main_arg10 main_call0_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call0_v4 main_call0_v5 ((broadcastInDim S1600000x1 ![0] bcast_S1600000_S1600000x1_0) : (⟨S1600000, .i32⟩ : BufTy).Contents (Elt F) → (⟨S1600000x1, .i32⟩ : BufTy).Contents (Elt F)),
    StableHlo.nullary main_call0_c_1 ((constantI S1 32 99999#32) : (⟨S1, .i32⟩ : BufTy).Contents (Elt F)),
    StableHlo.nullary main_call0_c_2 ((constantI S_ 32 0#32) : (⟨S_, .i32⟩ : BufTy).Contents (Elt F)),
    StableHlo.unary main_call0_c_2 main_call0_v6 ((broadcastInDim S1600000x1 ![] bcast_S_S1600000x1) : (⟨S_, .i32⟩ : BufTy).Contents (Elt F) → (⟨S1600000x1, .i32⟩ : BufTy).Contents (Elt F)),
    StableHlo.binary main_call0_v5 main_call0_v6 main_call0_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call0_c_1 main_call0_v8 ((broadcastInDim S1x1 ![1] bcast_S1_S1x1_1) : (⟨S1, .i32⟩ : BufTy).Contents (Elt F) → (⟨S1x1, .i32⟩ : BufTy).Contents (Elt F)),
    StableHlo.unary main_call0_v8 main_call0_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call0_v5 main_call0_v9 main_call0_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call0_v7 main_call0_v10 main_call0_v11 (andi : (⟨S1600000x1, .i1⟩ : BufTy).Contents (Elt F) → (⟨S1600000x1, .i1⟩ : BufTy).Contents (Elt F) → (⟨S1600000x1, .i1⟩ : BufTy).Contents (Elt F)),
    StableHlo.nullary main_call0_c_3 ((constantI S_ 1 1#1) : (⟨S_, .i1⟩ : BufTy).Contents (Elt F)),
    StableHlo.binary main_call0_v11 main_call0_c_3 main_call0_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call0_v5 main_call0_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call0_v12 main_call0_v14 ((broadcastInDim S1600000x16 ![0] bcast_S1600000_S1600000x16_0) : (⟨S1600000, .i1⟩ : BufTy).Contents (Elt F) → (⟨S1600000x16, .i1⟩ : BufTy).Contents (Elt F)),
    StableHlo.nullary main_call0_cst ((constant S_ .f32 0x7FC00000#32) : (⟨S_, .f32⟩ : BufTy).Contents (Elt F)),
    StableHlo.unary main_call0_cst main_call0_v15 ((broadcastInDim S1600000x16 ![] bcast_S_S1600000x16) : (⟨S_, .f32⟩ : BufTy).Contents (Elt F) → (⟨S1600000x16, .f32⟩ : BufTy).Contents (Elt F)),
    StableHlo.ternary main_call0_v14 main_call0_v13 main_call0_v15 main_v0 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)),
    StableHlo.nullary main_call1_c ((constantI S_ 32 0#32) : (⟨S_, .i32⟩ : BufTy).Contents (Elt F)),
    StableHlo.unary main_call1_c main_call1_v0 ((broadcastInDim S1600000 ![] bcast_S_S1600000) : (⟨S_, .i32⟩ : BufTy).Contents (Elt F) → (⟨S1600000, .i32⟩ : BufTy).Contents (Elt F)),
    StableHlo.binary main_arg9 main_call1_v0 main_call1_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call1_c_0 ((constantI S_ 32 100000#32) : (⟨S_, .i32⟩ : BufTy).Contents (Elt F)),
    StableHlo.unary main_call1_c_0 main_call1_v2 ((broadcastInDim S1600000 ![] bcast_S_S1600000) : (⟨S_, .i32⟩ : BufTy).Contents (Elt F) → (⟨S1600000, .i32⟩ : BufTy).Contents (Elt F)),
    StableHlo.binary main_arg9 main_call1_v2 main_call1_v3 (addi : (⟨S1600000, .i32⟩ : BufTy).Contents (Elt F) → (⟨S1600000, .i32⟩ : BufTy).Contents (Elt F) → (⟨S1600000, .i32⟩ : BufTy).Contents (Elt F)),
    StableHlo.ternary main_call1_v1 main_call1_v3 main_arg9 main_call1_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call1_v4 main_call1_v5 ((broadcastInDim S1600000x1 ![0] bcast_S1600000_S1600000x1_0) : (⟨S1600000, .i32⟩ : BufTy).Contents (Elt F) → (⟨S1600000x1, .i32⟩ : BufTy).Contents (Elt F)),
    StableHlo.nullary main_call1_c_1 ((constantI S1 32 99999#32) : (⟨S1, .i32⟩ : BufTy).Contents (Elt F)),
    StableHlo.nullary main_call1_c_2 ((constantI S_ 32 0#32) : (⟨S_, .i32⟩ : BufTy).Contents (Elt F)),
    StableHlo.unary main_call1_c_2 main_call1_v6 ((broadcastInDim S1600000x1 ![] bcast_S_S1600000x1) : (⟨S_, .i32⟩ : BufTy).Contents (Elt F) → (⟨S1600000x1, .i32⟩ : BufTy).Contents (Elt F)),
    StableHlo.binary main_call1_v5 main_call1_v6 main_call1_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call1_c_1 main_call1_v8 ((broadcastInDim S1x1 ![1] bcast_S1_S1x1_1) : (⟨S1, .i32⟩ : BufTy).Contents (Elt F) → (⟨S1x1, .i32⟩ : BufTy).Contents (Elt F)),
    StableHlo.unary main_call1_v8 main_call1_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call1_v5 main_call1_v9 main_call1_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call1_v7 main_call1_v10 main_call1_v11 (andi : (⟨S1600000x1, .i1⟩ : BufTy).Contents (Elt F) → (⟨S1600000x1, .i1⟩ : BufTy).Contents (Elt F) → (⟨S1600000x1, .i1⟩ : BufTy).Contents (Elt F)),
    StableHlo.nullary main_call1_c_3 ((constantI S_ 1 1#1) : (⟨S_, .i1⟩ : BufTy).Contents (Elt F)),
    StableHlo.binary main_call1_v11 main_call1_c_3 main_call1_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg1 main_call1_v5 main_call1_v13 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    StableHlo.unary main_call1_v12 main_call1_v14 ((broadcastInDim S1600000x16 ![0] bcast_S1600000_S1600000x16_0) : (⟨S1600000, .i1⟩ : BufTy).Contents (Elt F) → (⟨S1600000x16, .i1⟩ : BufTy).Contents (Elt F)),
    StableHlo.nullary main_call1_cst ((constant S_ .f32 0x7FC00000#32) : (⟨S_, .f32⟩ : BufTy).Contents (Elt F)),
    StableHlo.unary main_call1_cst main_call1_v15 ((broadcastInDim S1600000x16 ![] bcast_S_S1600000x16) : (⟨S_, .f32⟩ : BufTy).Contents (Elt F) → (⟨S1600000x16, .f32⟩ : BufTy).Contents (Elt F)),
    StableHlo.ternary main_call1_v14 main_call1_v13 main_call1_v15 main_v1 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)),
    StableHlo.nullary main_call2_c ((constantI S_ 32 0#32) : (⟨S_, .i32⟩ : BufTy).Contents (Elt F)),
    StableHlo.unary main_call2_c main_call2_v0 ((broadcastInDim S1600000 ![] bcast_S_S1600000) : (⟨S_, .i32⟩ : BufTy).Contents (Elt F) → (⟨S1600000, .i32⟩ : BufTy).Contents (Elt F)),
    StableHlo.binary main_arg11 main_call2_v0 main_call2_v1 ((cmpi .slt) : (⟨S1600000, .i32⟩ : BufTy).Contents (Elt F) → (⟨S1600000, .i32⟩ : BufTy).Contents (Elt F) → (⟨S1600000, .i1⟩ : BufTy).Contents (Elt F)),
    StableHlo.nullary main_call2_c_0 ((constantI S_ 32 8#32) : (⟨S_, .i32⟩ : BufTy).Contents (Elt F)),
    StableHlo.unary main_call2_c_0 main_call2_v2 ((broadcastInDim S1600000 ![] bcast_S_S1600000) : (⟨S_, .i32⟩ : BufTy).Contents (Elt F) → (⟨S1600000, .i32⟩ : BufTy).Contents (Elt F)),
    StableHlo.binary main_arg11 main_call2_v2 main_call2_v3 (addi : (⟨S1600000, .i32⟩ : BufTy).Contents (Elt F) → (⟨S1600000, .i32⟩ : BufTy).Contents (Elt F) → (⟨S1600000, .i32⟩ : BufTy).Contents (Elt F)),
    StableHlo.ternary main_call2_v1 main_call2_v3 main_arg11 main_call2_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_call2_v4 main_call2_v5 ((broadcastInDim S1600000x1 ![0] bcast_S1600000_S1600000x1_0) : (⟨S1600000, .i32⟩ : BufTy).Contents (Elt F) → (⟨S1600000x1, .i32⟩ : BufTy).Contents (Elt F)),
    StableHlo.nullary main_call2_c_1 ((constantI S1 32 7#32) : (⟨S1, .i32⟩ : BufTy).Contents (Elt F)),
    StableHlo.nullary main_call2_c_2 ((constantI S_ 32 0#32) : (⟨S_, .i32⟩ : BufTy).Contents (Elt F)),
    StableHlo.unary main_call2_c_2 main_call2_v6 ((broadcastInDim S1600000x1 ![] bcast_S_S1600000x1) : (⟨S_, .i32⟩ : BufTy).Contents (Elt F) → (⟨S1600000x1, .i32⟩ : BufTy).Contents (Elt F)),
    StableHlo.binary main_call2_v5 main_call2_v6 main_call2_v7 ((cmpi .sge) : (⟨S1600000x1, .i32⟩ : BufTy).Contents (Elt F) → (⟨S1600000x1, .i32⟩ : BufTy).Contents (Elt F) → (⟨S1600000x1, .i1⟩ : BufTy).Contents (Elt F)),
    StableHlo.unary main_call2_c_1 main_call2_v8 ((broadcastInDim S1x1 ![1] bcast_S1_S1x1_1) : (⟨S1, .i32⟩ : BufTy).Contents (Elt F) → (⟨S1x1, .i32⟩ : BufTy).Contents (Elt F)),
    StableHlo.unary main_call2_v8 main_call2_v9 ((broadcastInDim S1600000x1 ![0, 1] bcast_S1x1_S1600000x1_0_1) : (⟨S1x1, .i32⟩ : BufTy).Contents (Elt F) → (⟨S1600000x1, .i32⟩ : BufTy).Contents (Elt F)),
    StableHlo.binary main_call2_v5 main_call2_v9 main_call2_v10 ((cmpi .sle) : (⟨S1600000x1, .i32⟩ : BufTy).Contents (Elt F) → (⟨S1600000x1, .i32⟩ : BufTy).Contents (Elt F) → (⟨S1600000x1, .i1⟩ : BufTy).Contents (Elt F)),
    StableHlo.binary main_call2_v7 main_call2_v10 main_call2_v11 (andi : (⟨S1600000x1, .i1⟩ : BufTy).Contents (Elt F) → (⟨S1600000x1, .i1⟩ : BufTy).Contents (Elt F) → (⟨S1600000x1, .i1⟩ : BufTy).Contents (Elt F)),
    StableHlo.nullary main_call2_c_3 ((constantI S_ 1 1#1) : (⟨S_, .i1⟩ : BufTy).Contents (Elt F)),
    StableHlo.binary main_call2_v11 main_call2_c_3 main_call2_v12 ((fun x v => Host.reduce IntOp.andi x v reducesTo_S1600000x1_S1600000_d1 h_S_) : (⟨S1600000x1, .i1⟩ : BufTy).Contents (Elt F) → (⟨S_, .i1⟩ : BufTy).Contents (Elt F) → (⟨S1600000, .i1⟩ : BufTy).Contents (Elt F)),
    StableHlo.binary main_arg2 main_call2_v5 main_call2_v13 ((fun x i => Host.gather gather_S8x16_S1600000x1_S1600000x16_1_0_n_n_0_1_116 x i) : (⟨S8x16, .f32⟩ : BufTy).Contents (Elt F) → (⟨S1600000x1, .i32⟩ : BufTy).Contents (Elt F) → (⟨S1600000x16, .f32⟩ : BufTy).Contents (Elt F)),
    StableHlo.unary main_call2_v12 main_call2_v14 ((broadcastInDim S1600000x16 ![0] bcast_S1600000_S1600000x16_0) : (⟨S1600000, .i1⟩ : BufTy).Contents (Elt F) → (⟨S1600000x16, .i1⟩ : BufTy).Contents (Elt F)),
    StableHlo.nullary main_call2_cst ((constant S_ .f32 0x7FC00000#32) : (⟨S_, .f32⟩ : BufTy).Contents (Elt F)),
    StableHlo.unary main_call2_cst main_call2_v15 ((broadcastInDim S1600000x16 ![] bcast_S_S1600000x16) : (⟨S_, .f32⟩ : BufTy).Contents (Elt F) → (⟨S1600000x16, .f32⟩ : BufTy).Contents (Elt F)),
    StableHlo.ternary main_call2_v14 main_call2_v13 main_call2_v15 main_v2 (select : (⟨S1600000x16, .i1⟩ : BufTy).Contents (Elt F) → (⟨S1600000x16, .f32⟩ : BufTy).Contents (Elt F) → (⟨S1600000x16, .f32⟩ : BufTy).Contents (Elt F) → (⟨S1600000x16, .f32⟩ : BufTy).Contents (Elt F)),
    StableHlo.nary ![main_arg0, main_v0, main_v1, main_v2] main_v3 (fun u => concatenate S1600000x64 1 [⟨S1600000x16, u 0⟩, ⟨S1600000x16, u 1⟩, ⟨S1600000x16, u 2⟩, ⟨S1600000x16, u 3⟩] concatenates_S1600000x16_S1600000x16_S1600000x16_S1600000x16_S1600000x64_d1),
    StableHlo.binary main_v3 main_arg3 main_v4 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg4 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S1600000x64 ![0, 1] bcast_S1x64_S1600000x64_0_1 : (⟨S1x64, .f32⟩ : BufTy).Contents (Elt F) → (⟨S1600000x64, .f32⟩ : BufTy).Contents (Elt F)),
    StableHlo.binary main_v4 main_v6 main_v7 (addf : (⟨S1600000x64, .f32⟩ : BufTy).Contents (Elt F) → (⟨S1600000x64, .f32⟩ : BufTy).Contents (Elt F) → (⟨S1600000x64, .f32⟩ : BufTy).Contents (Elt F)),
    StableHlo.nullary main_call3_cst (constant S_ .f32 0x00000000#32 : (⟨S_, .f32⟩ : BufTy).Contents (Elt F)),
    StableHlo.unary main_call3_cst main_call3_v0 (broadcastInDim S1600000x64 ![] bcast_S_S1600000x64 : (⟨S_, .f32⟩ : BufTy).Contents (Elt F) → (⟨S1600000x64, .f32⟩ : BufTy).Contents (Elt F)),
    StableHlo.binary main_v7 main_call3_v0 main_v8 (maximumf : (⟨S1600000x64, .f32⟩ : BufTy).Contents (Elt F) → (⟨S1600000x64, .f32⟩ : BufTy).Contents (Elt F) → (⟨S1600000x64, .f32⟩ : BufTy).Contents (Elt F)),
    StableHlo.binary main_v8 main_arg5 main_v9 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    StableHlo.unary main_arg6 main_v10 (broadcastInDim S1x64 ![1] bcast_S64_S1x64_1 : (⟨S64, .f32⟩ : BufTy).Contents (Elt F) → (⟨S1x64, .f32⟩ : BufTy).Contents (Elt F)),
    StableHlo.unary main_v10 main_v11 (broadcastInDim S1600000x64 ![0, 1] bcast_S1x64_S1600000x64_0_1 : (⟨S1x64, .f32⟩ : BufTy).Contents (Elt F) → (⟨S1600000x64, .f32⟩ : BufTy).Contents (Elt F)),
    StableHlo.binary main_v9 main_v11 main_v12 (addf : (⟨S1600000x64, .f32⟩ : BufTy).Contents (Elt F) → (⟨S1600000x64, .f32⟩ : BufTy).Contents (Elt F) → (⟨S1600000x64, .f32⟩ : BufTy).Contents (Elt F)),
    StableHlo.nullary main_call4_cst (constant S_ .f32 0x00000000#32 : (⟨S_, .f32⟩ : BufTy).Contents (Elt F)),
    StableHlo.unary main_call4_cst main_call4_v0 (broadcastInDim S1600000x64 ![] bcast_S_S1600000x64 : (⟨S_, .f32⟩ : BufTy).Contents (Elt F) → (⟨S1600000x64, .f32⟩ : BufTy).Contents (Elt F)),
    StableHlo.binary main_v12 main_call4_v0 main_v13 (maximumf : (⟨S1600000x64, .f32⟩ : BufTy).Contents (Elt F) → (⟨S1600000x64, .f32⟩ : BufTy).Contents (Elt F) → (⟨S1600000x64, .f32⟩ : BufTy).Contents (Elt F)),
    StableHlo.binary main_v13 main_arg7 main_v14 ((fun l r => Host.dotGeneral dot_S1600000x64_S64x16_S1600000x16_1_0_0_1_n_n none l r) : (⟨S1600000x64, .f32⟩ : BufTy).Contents (Elt F) → (⟨S64x16, .f32⟩ : BufTy).Contents (Elt F) → (⟨S1600000x16, .f32⟩ : BufTy).Contents (Elt F)),
    StableHlo.unary main_arg8 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S1600000x16 ![0, 1] bcast_S1x16_S1600000x16_0_1 : (⟨S1x16, .f32⟩ : BufTy).Contents (Elt F) → (⟨S1600000x16, .f32⟩ : BufTy).Contents (Elt F)),
    StableHlo.binary main_v14 main_v16 main_v17 (addf : (⟨S1600000x16, .f32⟩ : BufTy).Contents (Elt F) → (⟨S1600000x16, .f32⟩ : BufTy).Contents (Elt F) → (⟨S1600000x16, .f32⟩ : BufTy).Contents (Elt F)) ]

/-- The line is the three takes and then the layers. -/
theorem ops_eq : (ops : List (HloOp τ sig (Elt F))) = takeRecv ++ (takeSend ++ (takeGlob ++ layers)) := rfl

/-- The line is the takes and then the layers. -/
theorem ops_split : (ops : List (HloOp τ sig (Elt F))) = takes ++ layers := rfl

/-- @main is that straight line: the called functions' bodies at their calls and the sequencing reassociated, by
    definitional unfolding. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub ..⟩

/-- From any memory with zero counters every weakly fair execution of @main terminates, and every array then holds the
    line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.LibConcatPieces.lean ====
/-
  A concatenation along an axis, read as ONE function of the result index.

  `concatenate t a xs h` lays the pieces `xs` end to end along axis `a`. If a function `G` of the result index
  restricts, on the span each piece occupies, to that piece (`Restricts`: piece by piece, the position where the
  piece starts accumulated along the list), then the concatenation IS `G` (`concatenate_eq_of_restricts`) — any
  number of pieces, any extents, any rank. For a literal list the hypothesis unfolds to one conjunct per piece.

  `slice_piece`: the conjunct of a piece that is a band `[off, off + N)` of the last axis of a rank-3 array `x`
  (a `vector.extract_strided_slice` with zero offsets on the two leading axes), from the statement that `G` at
  position `pre + k` is `x` at position `off + k`.
-/
import Idealize.ShloMosaic.Lib.Pipeline.Value
import Idealize.ShloMosaic.Lib.ValueIdx

namespace Idealize.ShloMosaic.ConcatPieces

open Idealize.ShloMosaic Idealize.ShloMosaic.ValueIdx

variable {α : Type}

/-- Where `c` falls among the extents `ns` laid end to end: some piece `k` starts at or before `c` and ends after it. -/
theorem exists_span : ∀ (ns : List Nat) (c : Nat), c < ns.sum →
    ∃ (k : Nat) (hk : k < ns.length), (ns.take k).sum ≤ c ∧ c < (ns.take k).sum + ns[k]
  | [], c, h => absurd h (by simp)
  | n :: ns, c, h => by
    by_cases hc : c < n
    · exact ⟨0, Nat.zero_lt_succ _, by simp, by simpa using hc⟩
    · have h' : c - n < ns.sum := by rw [List.sum_cons] at h; omega
      obtain ⟨k, hk, lo, hi⟩ := exists_span ns (c - n) h'
      refine ⟨k + 1, Nat.succ_lt_succ hk, ?_, ?_⟩
      · simp only [List.take_succ_cons, List.sum_cons]; omega
      · simp only [List.take_succ_cons, List.sum_cons, List.getElem_cons_succ]; omega

/-- The extent, along axis `a` of the result shape `t`, of a piece of shape `s` (0 for a piece of another rank, which
    `Shape.Concatenates` excludes): the summand of `Shape.Concatenates`' total. -/
def extent (t : Shape) (a : Fin t.rank) (s : Shape) : Nat := if h : s.rank = t.rank then s.size (a.cast h.symm) else 0

/-- Every piece of `xs`, the first starting at position `pre` of axis `a` and each next one where the previous
    ends, is the restriction of `G` to its span: at a piece index `i` and a result index `j` with the same
    coordinates off the axis and `j a = start + i a`, the piece at `i` is `G j`. -/
def Restricts (t : Shape) (a : Fin t.rank) (G : t.Idx → α) : Nat → List ((s : Shape) × (s.Idx → α)) → Prop
  | _, [] => True
  | pre, p :: rest =>
    (∀ (hr : p.1.rank = t.rank) (i : p.1.Idx) (j : t.Idx),
        (∀ b : Fin p.1.rank, b.cast hr ≠ a → (i b).val = (j (b.cast hr)).val) →
        pre + (i (a.cast hr.symm)).val = (j a).val → p.2 i = G j)
    ∧ Restricts t a G (pre + extent t a p.1) rest

/-- The conjunct of piece `k`, its start the extents of the pieces before it. -/
theorem Restricts.get {t : Shape} {a : Fin t.rank} {G : t.Idx → α} :
    ∀ (xs : List ((s : Shape) × (s.Idx → α))) (pre : Nat), Restricts t a G pre xs →
      ∀ (k : Nat) (hk : k < xs.length) (hr : (xs[k]).1.rank = t.rank) (i : (xs[k]).1.Idx) (j : t.Idx),
        (∀ b : Fin (xs[k]).1.rank, b.cast hr ≠ a → (i b).val = (j (b.cast hr)).val) →
        pre + (((xs.take k).map (·.1)).map fun s => if h : s.rank = t.rank then s.size (a.cast h.symm) else 0).sum
            + (i (a.cast hr.symm)).val = (j a).val →
        (xs[k]).2 i = G j
  | [], _, _, k, hk, _, _, _, _, _ => absurd hk (Nat.not_lt_zero _)
  | p :: rest, pre, h, 0, _, hr, i, j, hi, ha => h.1 hr i j hi (by simpa using ha)
  | p :: rest, pre, h, k + 1, hk, hr, i, j, hi, ha =>
    Restricts.get rest _ h.2 k (Nat.lt_of_succ_lt_succ hk) hr i j hi (by
      simp only [List.take_succ_cons, List.map_cons, List.sum_cons] at ha
      rw [Nat.add_assoc pre]
      exact ha)

/-- **A concatenation whose pieces are the restrictions of one function is that function.** -/
theorem concatenate_eq_of_restricts {t : Shape} (a : Fin t.rank) (xs : List ((s : Shape) × (s.Idx → α)))
    (h : Shape.Concatenates (xs.map (·.1)) t a) (G : t.Idx → α) (hG : Restricts t a G 0 xs) :
    concatenate t a xs h = G := by
  funext j
  let f : Shape → Nat := fun s => if h : s.rank = t.rank then s.size (a.cast h.symm) else 0
  let ns : List Nat := (xs.map (·.1)).map f
  have hsum : (j a).val < ns.sum := by
    have e : ns.sum = t.size a := h.2.2
    rw [e]; exact (j a).isLt
  obtain ⟨k, hk, lo, hi⟩ := exists_span ns (j a).val hsum
  have hk' : k < xs.length := by simpa [ns] using hk
  have hmem : (xs[k]).1 ∈ xs.map (·.1) := List.mem_map.2 ⟨xs[k], List.getElem_mem hk', rfl⟩
  obtain ⟨hr, hoff⟩ := h.2.1 _ hmem
  have hnk : ns[k] = (xs[k]).1.size (a.cast hr.symm) := by
    have e1 : ns[k] = f ((xs.map (·.1))[k]'(by simpa using hk')) := List.getElem_map _
    rw [e1, List.getElem_map]
    exact dif_pos hr
  have htake : (((xs.take k).map (·.1)).map f).sum = (ns.take k).sum := by
    simp only [ns, List.map_take]
  let i : (xs[k]).1.Idx := fun b =>
    if hb : b.cast hr = a then
      ⟨(j a).val - (ns.take k).sum, by
        have e : b = a.cast hr.symm := Fin.ext (by simpa using congrArg Fin.val hb)
        subst e; rw [← hnk]; omega⟩
    else
      ⟨(j (b.cast hr)).val, by
        have e : (xs[k]).1.size b = t.size (b.cast hr) := hoff (b.cast hr) hb
        rw [e]; exact (j _).isLt⟩
  have hi' : ∀ b : Fin (xs[k]).1.rank, b.cast hr ≠ a → (i b).val = (j (b.cast hr)).val := fun b hb => by
    simp only [i, dif_neg hb]
  have hia : (i (a.cast hr.symm)).val = (j a).val - (ns.take k).sum := by
    have hb : (a.cast hr.symm).cast hr = a := Fin.ext rfl
    simp only [i, dif_pos hb]
  have ha' : (ns.take k).sum + (i (a.cast hr.symm)).val = (j a).val := by rw [hia]; omega
  rw [concatenate_apply_piece a xs h j k hk' (xs[k]).1 (xs[k]).2 rfl hr (ns.take k).sum htake i hi' ha']
  exact Restricts.get xs 0 hG k hk' hr i j hi' (by rw [Nat.zero_add]; exact htake ▸ ha')

/-- The conjunct of a piece that is the band `[off, off + N)` of the last axis of a rank-3 array `x`, laid at
    `[pre, pre + N)` of the result's last axis: it is `G`'s restriction as soon as `G` at last coordinate `pre + k`
    is `x` at last coordinate `off + k`, the two leading coordinates kept. -/
theorem slice_piece {A B M T : Nat} (N off pre : Nat) (x : (⟨3, ![A, B, M]⟩ : Shape).Idx → α)
    (G : (⟨3, ![A, B, T]⟩ : Shape).Idx → α)
    (hs : (⟨3, ![A, B, M]⟩ : Shape).Slices ![0, 0, off] ⟨3, ![A, B, N]⟩)
    (hG : ∀ (p : Fin A) (q : Fin B) (k : Nat) (_ : k < N) (hT : pre + k < T) (hM : off + k < M),
      G (ix3 p q ⟨pre + k, hT⟩) = x (ix3 p q ⟨off + k, hM⟩)) :
    ∀ (hr : (⟨3, ![A, B, N]⟩ : Shape).rank = (⟨3, ![A, B, T]⟩ : Shape).rank)
      (i : (⟨3, ![A, B, N]⟩ : Shape).Idx) (j : (⟨3, ![A, B, T]⟩ : Shape).Idx),
      (∀ b : Fin 3, b.cast hr ≠ (2 : Fin 3) → (i b).val = (j (b.cast hr)).val) →
      pre + (i ((2 : Fin 3).cast hr.symm)).val = (j 2).val →
      extractStridedSlice ⟨3, ![A, B, N]⟩ ![0, 0, off] x hs i = G j := by
  intro hr i j hi ha
  have h0 : (i 0).val = (j 0).val := hi 0 (Fin.ne_of_val_ne (show (0 : Nat) ≠ 2 by decide))
  have h1 : (i 1).val = (j 1).val := hi 1 (Fin.ne_of_val_ne (show (1 : Nat) ≠ 2 by decide))
  have h2 : pre + (i 2).val = (j 2).val := ha
  have hle : off + N ≤ M := hs.2 2
  have hiN : (i 2).val < N := (i 2).isLt
  have hjT : (j 2).val < T := (j 2).isLt
  have hj : j = ix3 (n0 := A) (n1 := B) (n2 := T) (j 0) (j 1) ⟨pre + (i 2).val, by omega⟩ := by
    funext a; apply Fin.ext
    match a with
    | ⟨0, _⟩ => rfl
    | ⟨1, _⟩ => rfl
    | ⟨2, _⟩ => exact h2.symm
  rw [hj, hG (j 0) (j 1) (i 2).val hiN (by omega) (by omega)]
  show x _ = x _
  congr 1; funext a; apply Fin.ext
  match a with
  | ⟨0, _⟩ => show 0 + (i 0).val = (j 0).val; omega
  | ⟨1, _⟩ => show 0 + (i 1).val = (j 1).val; omega
  | ⟨2, _⟩ => rfl

end Idealize.ShloMosaic.ConcatPieces
-- ==== Proof.RefLayers.lean ====
/-
  The reference's join and dense layers, at an entry.

  The reference joins the edge features with the three gathered arrays into a 64-wide array and applies three dense
  layers — a product with a weight, the bias spread over the rows, and for the first two a rectifier. Read at entry
  (n, q): the join at (n, k) is position k of the four rows of edge n laid end to end, each product is a sum over the 64
  contracted positions, the spread bias is the bias at the column. So the layers compute the network of the
  CONCATENATED row, which is the network computed band by band (`hid1cat_cat4`).
-/
import proofs.«160168_j83631603188044_1_alg».proof.Proof.Gen.ReferenceIdeal
import proofs.«160168_j83631603188044_1_alg».proof.Proof.MlpSpec
import proofs.«160168_j83631603188044_1_alg».proof.Proof.LibPlainDot
import proofs.«160168_j83631603188044_1_alg».proof.Proof.LibConcatPieces
import Idealize.ShloMosaic.Lib.ValueIdx
import Idealize.ShloMosaic.Lib.ValueLayout
import Idealize.ShloMosaic.Lib.Pipeline.Value

noncomputable section

namespace Cert.ReferenceIdeal.Line

open Cert.ReferenceIdeal Cert.ReferenceIdeal.Gen Idealize.ShloMosaic Idealize.ShloMosaic.TcCoe Idealize.SL.Sem
open Idealize.ShloMosaic.ValueIdx Cert.EdgeMlp

/-- The programs' zero. -/
abbrev z : EReal := Ideal.ofBits .f32 0x00000000#32

/-- A take's index array made ready for the gather: an index below zero is moved up by the table's height `n`, and the
    array is stood up as a column. -/
def wrapIdx (n : BitVec 32) (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 n))) idx)

/-- Which edges' indices are in range, zero to `last`. -/
def inRange (last : BitVec 32) (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 last)))))
    (constantI S_ 1 1#1) reducesTo_S1600000x1_S1600000_d1 h_S_

/-- Rows of the node table, one per edge: the gathered row where the edge's index is in range, the fill value elsewhere. -/
def takeNode (x : FVec Ideal S100000x16 .f32) (idx : IVec S1600000 32) : FVec Ideal S1600000x16 .f32 :=
  select (broadcastInDim S1600000x16 ![0] bcast_S1600000_S1600000x16_0 (inRange 99999#32 (wrapIdx 100000#32 idx)))
    (Host.gather gather_S100000x16_S1600000x1_S1600000x16_1_0_n_n_0_1_116 x (wrapIdx 100000#32 idx))
    (broadcastInDim S1600000x16 ![] bcast_S_S1600000x16 (constant (F := Ideal) S_ .f32 0x7FC00000#32))

/-- Rows of the graph table, one per edge, likewise. -/
def takeGraph (x : FVec Ideal S8x16 .f32) (idx : IVec S1600000 32) : FVec Ideal S1600000x16 .f32 :=
  select (broadcastInDim S1600000x16 ![0] bcast_S1600000_S1600000x16_0 (inRange 7#32 (wrapIdx 8#32 idx)))
    (Host.gather gather_S8x16_S1600000x1_S1600000x16_1_0_n_n_0_1_116 x (wrapIdx 8#32 idx))
    (broadcastInDim S1600000x16 ![] bcast_S_S1600000x16 (constant (F := Ideal) S_ .f32 0x7FC00000#32))

/-! ## The join and the layers, as functions of whole arrays -/

/-- The rectifier on a 64-wide array. -/
def relu (x : FVec Ideal S1600000x64 .f32) : FVec Ideal S1600000x64 .f32 :=
  maximumf x (broadcastInDim S1600000x64 ![] bcast_S_S1600000x64 (constant (F := Ideal) S_ .f32 0x00000000#32))

/-- A 64-long bias spread over the rows. -/
def spread64 (b : FVec Ideal S64 .f32) : FVec Ideal S1600000x64 .f32 :=
  broadcastInDim S1600000x64 ![0, 1] bcast_S1x64_S1600000x64_0_1 (broadcastInDim S1x64 ![1] bcast_S64_S1x64_1 b)

/-- A 16-long bias spread over the rows. -/
def spread16 (b : FVec Ideal S16 .f32) : FVec Ideal S1600000x16 .f32 :=
  broadcastInDim S1600000x16 ![0, 1] bcast_S1x16_S1600000x16_0_1 (broadcastInDim S1x16 ![1] bcast_S16_S1x16_1 b)

/-- The four 16-wide arrays joined along the columns. -/
def joined (e r s g : FVec Ideal S1600000x16 .f32) : FVec Ideal S1600000x64 .f32 :=
  concatenate S1600000x64 1 [⟨S1600000x16, e⟩, ⟨S1600000x16, r⟩, ⟨S1600000x16, s⟩, ⟨S1600000x16, g⟩]
    concatenates_S1600000x16_S1600000x16_S1600000x16_S1600000x16_S1600000x64_d1

/-- The three dense layers on the joined array. -/
def layersOf (e r s g : FVec Ideal S1600000x16 .f32) (W0 : FVec Ideal S64x64 .f32) (b0 : FVec Ideal S64 .f32)
    (W1 : FVec Ideal S64x64 .f32) (b1 : FVec Ideal S64 .f32) (W2 : FVec Ideal S64x16 .f32) (b2 : FVec Ideal S16 .f32) :
    FVec Ideal S1600000x16 .f32 :=
  addf (Host.dotGeneral dot_S1600000x64_S64x16_S1600000x16_1_0_0_1_n_n none
      (relu (addf (Host.dotGeneral dot_S1600000x64_S64x64_S1600000x64_1_0_0_1_n_n none
        (relu (addf (Host.dotGeneral dot_S1600000x64_S64x64_S1600000x64_1_0_0_1_n_n none (joined e r s g) W0) (spread64 b0))) W1)
        (spread64 b1))) W2)
    (spread16 b2)

/-! ## The layers at an entry -/

theorem dot64_apply (l : FVec Ideal S1600000x64 .f32) (r : FVec Ideal S64x64 .f32) (n : Fin 1600000) (j : Fin 64) :
    Host.dotGeneral dot_S1600000x64_S64x64_S1600000x64_1_0_0_1_n_n none l r (ix2 n j) = ∑ k : Fin 64, l (ix2 n k) * r (ix2 k j) :=
  Cert.Lib.dotGeneral_plain_apply Facts₀.dot_S1600000x64_S64x64_S1600000x64_1_0_0_1_n_n_wf none _ l r n j

theorem dot16_apply (l : FVec Ideal S1600000x64 .f32) (r : FVec Ideal S64x16 .f32) (n : Fin 1600000) (q : Fin 16) :
    Host.dotGeneral dot_S1600000x64_S64x16_S1600000x16_1_0_0_1_n_n none l r (ix2 n q) = ∑ k : Fin 64, l (ix2 n k) * r (ix2 k q) :=
  Cert.Lib.dotGeneral_plain_apply Facts₀.dot_S1600000x64_S64x16_S1600000x16_1_0_0_1_n_n_wf none _ l r n q

theorem relu_apply (x : FVec Ideal S1600000x64 .f32) (n : Fin 1600000) (j : Fin 64) : relu x (ix2 n j) = max (x (ix2 n j)) z := rfl

theorem spread64_apply (b : FVec Ideal S64 .f32) (n : Fin 1600000) (j : Fin 64) : spread64 b (ix2 n j) = b (ix1 j) := by
  unfold spread64
  rw [broadcastInDim_apply _ _ _ (ix2 n j) (ix2 (0 : Fin 1) j) (fun a => by match a with | ⟨0, _⟩ => rfl | ⟨1, _⟩ => rfl)]
  exact broadcastInDim_apply _ _ _ (ix2 (0 : Fin 1) j) (ix1 j) (fun a => by match a with | ⟨0, _⟩ => rfl)

theorem spread16_apply (b : FVec Ideal S16 .f32) (n : Fin 1600000) (q : Fin 16) : spread16 b (ix2 n q) = b (ix1 q) := by
  unfold spread16
  rw [broadcastInDim_apply _ _ _ (ix2 n q) (ix2 (0 : Fin 1) q) (fun a => by match a with | ⟨0, _⟩ => rfl | ⟨1, _⟩ => rfl)]
  exact broadcastInDim_apply _ _ _ (ix2 (0 : Fin 1) q) (ix1 q) (fun a => by match a with | ⟨0, _⟩ => rfl)

/-- One 16-wide piece laid at columns `pre … pre + 15` of a 64-wide array is the restriction of a function `Gc` of
    the 64-wide index as soon as `Gc` at column `pre + k` is the piece at column `k`. -/
theorem piece_ok (x : S1600000x16.Idx → EReal) (Gc : S1600000x64.Idx → EReal) (pre : Nat)
    (hG : ∀ (n : Fin 1600000) (k : Fin 16) (h : pre + k.val < 64), Gc (ix2 n ⟨pre + k.val, h⟩) = x (ix2 n k)) :
    ∀ (hr : S1600000x16.rank = S1600000x64.rank) (i : S1600000x16.Idx) (j : S1600000x64.Idx),
      (∀ b : Fin S1600000x16.rank, b.cast hr ≠ (1 : Fin 2) → (i b).val = (j (b.cast hr)).val) →
      pre + (i ((1 : Fin 2).cast hr.symm)).val = (j 1).val → x i = Gc j := by
  intro hr i j hi ha
  have h0 : (i 0).val = (j 0).val := hi 0 (Fin.ne_of_val_ne (show (0 : Nat) ≠ 1 by decide))
  have h1 : pre + (i 1).val = (j 1).val := ha
  have hlt : pre + (i 1).val < 64 := by rw [h1]; exact (j 1).isLt
  have hj : j = ix2 (n0 := 1600000) (n1 := 64) (j 0) ⟨pre + (i 1).val, hlt⟩ := by
    funext a; apply Fin.ext
    match a with
    | ⟨0, _⟩ => rfl
    | ⟨1, _⟩ => exact h1.symm
  rw [hj, hG (j 0) (i 1) hlt]
  refine congrArg x (funext fun a => Fin.ext ?_)
  match a with
  | ⟨0, _⟩ => exact h0
  | ⟨1, _⟩ => rfl

/-- The join at (n, k) is position k of the four rows of edge n laid end to end. -/
theorem joined_apply (e r s g : FVec Ideal S1600000x16 .f32) (n : Fin 1600000) (k : Fin 64) :
    joined e r s g (ix2 n k) = cat4 (row e n) (row r n) (row s n) (row g n) k := by
  let Gc : S1600000x64.Idx → EReal := fun j => cat4 (row e (j 0)) (row r (j 0)) (row s (j 0)) (row g (j 0)) (j 1)
  have p0 : ∀ (n : Fin 1600000) (k : Fin 16) (h : 0 + k.val < 64), Gc (ix2 n ⟨0 + k.val, h⟩) = e (ix2 n k) := fun n k h =>
    (congrArg (cat4 (row e n) (row r n) (row s n) (row g n))
      (Fin.ext (by show 0 + k.val = 16 * 0 + k.val; omega) : (⟨0 + k.val, h⟩ : Fin 64) = band 0 k)).trans (cat4_band0 _ _ _ _ k)
  have p1 : ∀ (n : Fin 1600000) (k : Fin 16) (h : 16 + k.val < 64), Gc (ix2 n ⟨16 + k.val, h⟩) = r (ix2 n k) := fun n k h =>
    (congrArg (cat4 (row e n) (row r n) (row s n) (row g n))
      (Fin.ext (by show 16 + k.val = 16 * 1 + k.val; omega) : (⟨16 + k.val, h⟩ : Fin 64) = band 1 k)).trans (cat4_band1 _ _ _ _ k)
  have p2 : ∀ (n : Fin 1600000) (k : Fin 16) (h : 32 + k.val < 64), Gc (ix2 n ⟨32 + k.val, h⟩) = s (ix2 n k) := fun n k h =>
    (congrArg (cat4 (row e n) (row r n) (row s n) (row g n))
      (Fin.ext (by show 32 + k.val = 16 * 2 + k.val; omega) : (⟨32 + k.val, h⟩ : Fin 64) = band 2 k)).trans (cat4_band2 _ _ _ _ k)
  have p3 : ∀ (n : Fin 1600000) (k : Fin 16) (h : 48 + k.val < 64), Gc (ix2 n ⟨48 + k.val, h⟩) = g (ix2 n k) := fun n k h =>
    (congrArg (cat4 (row e n) (row r n) (row s n) (row g n))
      (Fin.ext (by show 48 + k.val = 16 * 3 + k.val; omega) : (⟨48 + k.val, h⟩ : Fin 64) = band 3 k)).trans (cat4_band3 _ _ _ _ k)
  have hG : ConcatPieces.Restricts S1600000x64 (1 : Fin 2) Gc 0
      [⟨S1600000x16, e⟩, ⟨S1600000x16, r⟩, ⟨S1600000x16, s⟩, ⟨S1600000x16, g⟩] :=
    And.intro (piece_ok e Gc 0 p0) (And.intro (piece_ok r Gc 16 p1) (And.intro (piece_ok s Gc 32 p2)
      (And.intro (piece_ok g Gc 48 p3) trivial)))
  unfold joined
  rw [ConcatPieces.concatenate_eq_of_restricts (1 : Fin 2) _ _ Gc hG]

/-- THE REFERENCE'S RESULT is the network band by band: `G` of its arguments and the three takes. -/
theorem layers_eq (e r s g : FVec Ideal S1600000x16 .f32) (W0 : FVec Ideal S64x64 .f32) (b0 : FVec Ideal S64 .f32)
    (W1 : FVec Ideal S64x64 .f32) (b1 : FVec Ideal S64 .f32) (W2 : FVec Ideal S64x16 .f32) (b2 : FVec Ideal S16 .f32) :
    layersOf e r s g W0 b0 W1 b1 W2 b2 = G z e r s g W0 (vec b0) W1 (vec b1) W2 (vec b2) := by
  funext i
  obtain ⟨n, q, rfl⟩ : ∃ (n : Fin 1600000) (q : Fin 16), i = ix2 n q := ⟨i 0, i 1, eq_ix2 i⟩
  unfold layersOf
  rw [addf_apply, dot16_apply, spread16_apply]
  show _ = mlpRow z (row e n) (row r n) (row s n) (row g n) (mat W0) (vec b0) (mat W1) (vec b1) (mat W2) (vec b2) q
  unfold mlpRow outv
  refine congrArg (· + b2 (ix1 q)) (Finset.sum_congr rfl fun k _ => congrArg (· * W2 (ix2 k q)) ?_)
  rw [relu_apply, addf_apply, dot64_apply, spread64_apply]
  unfold hid2
  refine congrArg (fun t => max (t + b1 (ix1 k)) z) (Finset.sum_congr rfl fun k' _ => congrArg (· * W1 (ix2 k' k)) ?_)
  rw [relu_apply, addf_apply, dot64_apply, spread64_apply, ← hid1cat_cat4]
  unfold hid1cat
  refine congrArg (fun t => max (t + b0 (ix1 k')) z) (Finset.sum_congr rfl fun k'' _ => congrArg (· * W0 (ix2 k'' k')) ?_)
  exact joined_apply e r s g n k''

end Cert.ReferenceIdeal.Line

end
-- ==== Proof.LibHostLine.lean ====
/-
  Reading a long straight line of host operations a stretch at a time.

  What an array holds after a line of operations is a fold over the line. Three facts make a long line readable in short
  stretches: a line cut in two is run by running the first part and then the second; a stretch leaves alone every array
  none of its operations writes; and a join of six operands written as one operation over a literal family of six
  arrays reads each operand at its own array (the library states this for four operands). Independent of any program.
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- Running one stretch after another: the line `l₁ ++ l₂` from `V` is `l₂` from what `l₁` leaves. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih (op.result V)

/-- A stretch leaves alone every array none of its operations writes (the hypothesis as a `List.Forall`, which a literal
    stretch discharges operation by operation: each operation writes only its own result array). -/
theorem after_keeps {seg : List (HloOp τ sig Val)} {b : Ref sig .tc} (ν : Valuation τ sig Val)
    (h : seg.Forall fun op => Proc.devRef .tc b ∉ op.writes) :
    StableHlo.after seg ν (Proc.devRef .tc b) = ν (Proc.devRef .tc b) :=
  StableHlo.after_of_forall_not_mem _ _ (List.forall_iff_forall_mem.mp h)

variable {x0 x1 x2 x3 x4 x5 y : Ref sig .tc}

/-- An operation over a LITERAL family of six arrays (a join of six operands), read at its result array: its function of
    the six operands' contents, each at its own array — so that reading can go on into the operands. -/
theorem nary6_result
    (f : ((k : Fin 6) → ((![x0, x1, x2, x3, x4, x5] : Fin 6 → Ref sig .tc) k).ty.Contents Val) → y.ty.Contents Val) (hxs hy)
    (V : Valuation τ sig Val) :
    (nary (τ := τ) ![x0, x1, x2, x3, x4, x5] y f hxs hy).result V (Proc.devRef .tc y)
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
            (fun i => i.elim0))))))) := by
  rw [nary_result]; congr 1; funext k; fin_cases k <;> rfl

end Cert.Lib

end
-- ==== Proof.RefLine.lean ====
/-
  The reference's line of operations read back: what its result array holds, and that its arguments are untouched.

  The line is read in two stretches. The three takes leave, in their three result arrays, the take of the node table at
  the receivers, at the senders, and of the graph table at the graphs, and write no argument array; the 19 operations
  after them leave in the result array the dense layers applied to the edge features and those three arrays.
-/
import proofs.«160168_j83631603188044_1_alg».proof.Proof.RefRun
import proofs.«160168_j83631603188044_1_alg».proof.Proof.RefLayers
import proofs.«160168_j83631603188044_1_alg».proof.Proof.LibHostLine

noncomputable section

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.ValueIdx Cert.EdgeMlp

/-! ## The takes -/

set_option maxHeartbeats 2000000 in
/-- The receivers' rows after the takes. -/
theorem takes_v0 (ν : Valuation τ sig (Elt Ideal)) :
    after (takes (F := Ideal)) ν (Proc.devRef .tc main_v0) = takeNode (ν (Proc.devRef .tc main_arg1)) (ν (Proc.devRef .tc main_arg10)) := by
  after_results_simp
  rfl

set_option maxHeartbeats 2000000 in
/-- The senders' rows after the takes. -/
theorem takes_v1 (ν : Valuation τ sig (Elt Ideal)) :
    after (takes (F := Ideal)) ν (Proc.devRef .tc main_v1) = takeNode (ν (Proc.devRef .tc main_arg1)) (ν (Proc.devRef .tc main_arg9)) := by
  after_results_simp
  rfl

set_option maxHeartbeats 2000000 in
/-- The graphs' rows after the takes. -/
theorem takes_v2 (ν : Valuation τ sig (Elt Ideal)) :
    after (takes (F := Ideal)) ν (Proc.devRef .tc main_v2) = takeGraph (ν (Proc.devRef .tc main_arg2)) (ν (Proc.devRef .tc main_arg11)) := by
  after_results_simp
  rfl

/-- The arrays the takes write: each operation's result array. -/
abbrev takesWritten : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v0, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v1, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v2]

set_option maxHeartbeats 2000000 in
/-- Every operation of the takes writes inside that list. -/
theorem takes_writes : (takes : List (HloOp τ sig (Elt Ideal))).Forall fun op =>
    op.writes ⊆ (takesWritten.map (Proc.devRef (τ := τ) .tc)).toFinset := by
  simp only [takes, List.Forall, nullary_writes, unary_writes, binary_writes, ternary_writes, Finset.singleton_subset_iff,
    List.mem_toFinset, List.mem_map]
  repeat' apply And.intro
  all_goals exact ⟨_, by decide, rfl⟩

/-! No argument array is among them. -/
theorem takes_arg0 (ν : Valuation τ sig (Elt Ideal)) : after (takes (F := Ideal)) ν (Proc.devRef .tc main_arg0) = ν (Proc.devRef .tc main_arg0) :=
  after_of_writes_sub takes ν takes_writes (by decide)
theorem takes_arg1 (ν : Valuation τ sig (Elt Ideal)) : after (takes (F := Ideal)) ν (Proc.devRef .tc main_arg1) = ν (Proc.devRef .tc main_arg1) :=
  after_of_writes_sub takes ν takes_writes (by decide)
theorem takes_arg2 (ν : Valuation τ sig (Elt Ideal)) : after (takes (F := Ideal)) ν (Proc.devRef .tc main_arg2) = ν (Proc.devRef .tc main_arg2) :=
  after_of_writes_sub takes ν takes_writes (by decide)
theorem takes_arg3 (ν : Valuation τ sig (Elt Ideal)) : after (takes (F := Ideal)) ν (Proc.devRef .tc main_arg3) = ν (Proc.devRef .tc main_arg3) :=
  after_of_writes_sub takes ν takes_writes (by decide)
theorem takes_arg4 (ν : Valuation τ sig (Elt Ideal)) : after (takes (F := Ideal)) ν (Proc.devRef .tc main_arg4) = ν (Proc.devRef .tc main_arg4) :=
  after_of_writes_sub takes ν takes_writes (by decide)
theorem takes_arg5 (ν : Valuation τ sig (Elt Ideal)) : after (takes (F := Ideal)) ν (Proc.devRef .tc main_arg5) = ν (Proc.devRef .tc main_arg5) :=
  after_of_writes_sub takes ν takes_writes (by decide)
theorem takes_arg6 (ν : Valuation τ sig (Elt Ideal)) : after (takes (F := Ideal)) ν (Proc.devRef .tc main_arg6) = ν (Proc.devRef .tc main_arg6) :=
  after_of_writes_sub takes ν takes_writes (by decide)
theorem takes_arg7 (ν : Valuation τ sig (Elt Ideal)) : after (takes (F := Ideal)) ν (Proc.devRef .tc main_arg7) = ν (Proc.devRef .tc main_arg7) :=
  after_of_writes_sub takes ν takes_writes (by decide)
theorem takes_arg8 (ν : Valuation τ sig (Elt Ideal)) : after (takes (F := Ideal)) ν (Proc.devRef .tc main_arg8) = ν (Proc.devRef .tc main_arg8) :=
  after_of_writes_sub takes ν takes_writes (by decide)
theorem takes_arg9 (ν : Valuation τ sig (Elt Ideal)) : after (takes (F := Ideal)) ν (Proc.devRef .tc main_arg9) = ν (Proc.devRef .tc main_arg9) :=
  after_of_writes_sub takes ν takes_writes (by decide)
theorem takes_arg10 (ν : Valuation τ sig (Elt Ideal)) : after (takes (F := Ideal)) ν (Proc.devRef .tc main_arg10) = ν (Proc.devRef .tc main_arg10) :=
  after_of_writes_sub takes ν takes_writes (by decide)
theorem takes_arg11 (ν : Valuation τ sig (Elt Ideal)) : after (takes (F := Ideal)) ν (Proc.devRef .tc main_arg11) = ν (Proc.devRef .tc main_arg11) :=
  after_of_writes_sub takes ν takes_writes (by decide)

/-! ## The layers -/

set_option maxHeartbeats 2000000 in
/-- After the join and the three dense layers the result array holds `layersOf` of the edge features, the three arrays
    the takes wrote, and the weights and biases. -/
theorem layers_out (μ : Valuation τ sig (Elt Ideal)) :
    after (layers (F := Ideal)) μ (Proc.devRef .tc main_v17)
      = layersOf (μ (Proc.devRef .tc main_arg0)) (μ (Proc.devRef .tc main_v0)) (μ (Proc.devRef .tc main_v1))
          (μ (Proc.devRef .tc main_v2)) (μ (Proc.devRef .tc main_arg3)) (μ (Proc.devRef .tc main_arg4))
          (μ (Proc.devRef .tc main_arg5)) (μ (Proc.devRef .tc main_arg6)) (μ (Proc.devRef .tc main_arg7))
          (μ (Proc.devRef .tc main_arg8)) := by
  after_results
  rfl

/-- The arrays the layers write. -/
abbrev layersWritten : List (Ref sig .tc) :=
  [main_v3, main_v4, main_v5, main_v6, main_v7, main_call3_cst, main_call3_v0, main_v8, main_v9, main_v10, main_v11, main_v12, main_call4_cst, main_call4_v0, main_v13, main_v14, main_v15, main_v16, main_v17]

set_option maxHeartbeats 2000000 in
theorem layers_writes : (layers : List (HloOp τ sig (Elt Ideal))).Forall fun op =>
    op.writes ⊆ (layersWritten.map (Proc.devRef (τ := τ) .tc)).toFinset := by
  simp only [layers, List.Forall, nullary_writes, unary_writes, binary_writes, ternary_writes, nary_writes, Finset.singleton_subset_iff,
    List.mem_toFinset, List.mem_map]
  repeat' apply And.intro
  all_goals exact ⟨_, by decide, rfl⟩

/-! ## The whole line -/

/-- After the line the result array holds the layers of the edge features and the three takes. -/
theorem out_line (ν : Valuation τ sig (Elt Ideal)) :
    after (ops (F := Ideal)) ν (Proc.devRef .tc main_v17)
      = layersOf (ν (Proc.devRef .tc main_arg0))
          (takeNode (ν (Proc.devRef .tc main_arg1)) (ν (Proc.devRef .tc main_arg10)))
          (takeNode (ν (Proc.devRef .tc main_arg1)) (ν (Proc.devRef .tc main_arg9)))
          (takeGraph (ν (Proc.devRef .tc main_arg2)) (ν (Proc.devRef .tc main_arg11)))
          (ν (Proc.devRef .tc main_arg3)) (ν (Proc.devRef .tc main_arg4)) (ν (Proc.devRef .tc main_arg5))
          (ν (Proc.devRef .tc main_arg6)) (ν (Proc.devRef .tc main_arg7)) (ν (Proc.devRef .tc main_arg8)) := by
  rw [ops_split, Cert.Lib.after_append, layers_out, takes_v0, takes_v1, takes_v2, takes_arg0, takes_arg3, takes_arg4, takes_arg5,
    takes_arg6, takes_arg7, takes_arg8]

theorem kept0 (ν : Valuation τ sig (Elt Ideal)) : after (ops (F := Ideal)) ν (Proc.devRef .tc main_arg0) = ν (Proc.devRef .tc main_arg0) := by
  rw [ops_split, Cert.Lib.after_append, after_of_writes_sub layers _ layers_writes (by decide), takes_arg0]
theorem kept1 (ν : Valuation τ sig (Elt Ideal)) : after (ops (F := Ideal)) ν (Proc.devRef .tc main_arg1) = ν (Proc.devRef .tc main_arg1) := by
  rw [ops_split, Cert.Lib.after_append, after_of_writes_sub layers _ layers_writes (by decide), takes_arg1]
theorem kept2 (ν : Valuation τ sig (Elt Ideal)) : after (ops (F := Ideal)) ν (Proc.devRef .tc main_arg2) = ν (Proc.devRef .tc main_arg2) := by
  rw [ops_split, Cert.Lib.after_append, after_of_writes_sub layers _ layers_writes (by decide), takes_arg2]
theorem kept3 (ν : Valuation τ sig (Elt Ideal)) : after (ops (F := Ideal)) ν (Proc.devRef .tc main_arg3) = ν (Proc.devRef .tc main_arg3) := by
  rw [ops_split, Cert.Lib.after_append, after_of_writes_sub layers _ layers_writes (by decide), takes_arg3]
theorem kept4 (ν : Valuation τ sig (Elt Ideal)) : after (ops (F := Ideal)) ν (Proc.devRef .tc main_arg4) = ν (Proc.devRef .tc main_arg4) := by
  rw [ops_split, Cert.Lib.after_append, after_of_writes_sub layers _ layers_writes (by decide), takes_arg4]
theorem kept5 (ν : Valuation τ sig (Elt Ideal)) : after (ops (F := Ideal)) ν (Proc.devRef .tc main_arg5) = ν (Proc.devRef .tc main_arg5) := by
  rw [ops_split, Cert.Lib.after_append, after_of_writes_sub layers _ layers_writes (by decide), takes_arg5]
theorem kept6 (ν : Valuation τ sig (Elt Ideal)) : after (ops (F := Ideal)) ν (Proc.devRef .tc main_arg6) = ν (Proc.devRef .tc main_arg6) := by
  rw [ops_split, Cert.Lib.after_append, after_of_writes_sub layers _ layers_writes (by decide), takes_arg6]
theorem kept7 (ν : Valuation τ sig (Elt Ideal)) : after (ops (F := Ideal)) ν (Proc.devRef .tc main_arg7) = ν (Proc.devRef .tc main_arg7) := by
  rw [ops_split, Cert.Lib.after_append, after_of_writes_sub layers _ layers_writes (by decide), takes_arg7]
theorem kept8 (ν : Valuation τ sig (Elt Ideal)) : after (ops (F := Ideal)) ν (Proc.devRef .tc main_arg8) = ν (Proc.devRef .tc main_arg8) := by
  rw [ops_split, Cert.Lib.after_append, after_of_writes_sub layers _ layers_writes (by decide), takes_arg8]
theorem kept9 (ν : Valuation τ sig (Elt Ideal)) : after (ops (F := Ideal)) ν (Proc.devRef .tc main_arg9) = ν (Proc.devRef .tc main_arg9) := by
  rw [ops_split, Cert.Lib.after_append, after_of_writes_sub layers _ layers_writes (by decide), takes_arg9]
theorem kept10 (ν : Valuation τ sig (Elt Ideal)) : after (ops (F := Ideal)) ν (Proc.devRef .tc main_arg10) = ν (Proc.devRef .tc main_arg10) := by
  rw [ops_split, Cert.Lib.after_append, after_of_writes_sub layers _ layers_writes (by decide), takes_arg10]
theorem kept11 (ν : Valuation τ sig (Elt Ideal)) : after (ops (F := Ideal)) ν (Proc.devRef .tc main_arg11) = ν (Proc.devRef .tc main_arg11) := by
  rw [ops_split, Cert.Lib.after_append, after_of_writes_sub layers _ layers_writes (by decide), takes_arg11]

/-! ## The run, read -/

variable (m : (ℓ : Loc nD τ sig) → Buf (Elt Ideal) ℓ) (ρ : Dev nD → PrngReg)

/-- The reference's result as one function of its argument arrays. -/
def Gargs (c : Dev nD) : S1600000x16.Idx → EReal :=
  G z (m ((c.tc : Thread nD τ).loc main_arg0))
    (takeNode (m ((c.tc : Thread nD τ).loc main_arg1)) (m ((c.tc : Thread nD τ).loc main_arg10)))
    (takeNode (m ((c.tc : Thread nD τ).loc main_arg1)) (m ((c.tc : Thread nD τ).loc main_arg9)))
    (takeGraph (m ((c.tc : Thread nD τ).loc main_arg2)) (m ((c.tc : Thread nD τ).loc main_arg11)))
    (m ((c.tc : Thread nD τ).loc main_arg3)) (vec (m ((c.tc : Thread nD τ).loc main_arg4)))
    (m ((c.tc : Thread nD τ).loc main_arg5)) (vec (m ((c.tc : Thread nD τ).loc main_arg6)))
    (m ((c.tc : Thread nD τ).loc main_arg7)) (vec (m ((c.tc : Thread nD τ).loc main_arg8)))

/-- The reference's run: the result array at `Gargs`, the arguments unchanged. -/
theorem run : θ_run defs (onTc (τ := τ) (main (F := Ideal))) ⟨m, fun _ => 0, ρ⟩ fun r => ∀ c : Dev nD,
      r.2.mem ((c.tc : Thread nD τ).loc main_v17) = Gargs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v17).trans ((out_line _).trans (layers_eq _ _ _ _ _ _ _ _ _ _)),
      (h c main_arg0).trans (kept0 _),
      (h c main_arg1).trans (kept1 _),
      (h c main_arg2).trans (kept2 _),
      (h c main_arg3).trans (kept3 _),
      (h c main_arg4).trans (kept4 _),
      (h c main_arg5).trans (kept5 _),
      (h c main_arg6).trans (kept6 _),
      (h c main_arg7).trans (kept7 _),
      (h c main_arg8).trans (kept8 _),
      (h c main_arg9).trans (kept9 _),
      (h c main_arg10).trans (kept10 _),
      (h c main_arg11).trans (kept11 _)⟩)
    (run_main m ρ)

end Cert.ReferenceIdeal.Line

end
-- ==== Proof.lean ====
/-
  The certificate of the edge network kernel against its reference, over the extended reals.

  Both programs gather, per edge, a row of the node table for the receiver and for the sender and a row of the graph
  table — with the same operations —, and apply a three-layer network to the edge's own features and the three gathered
  rows. The kernel streams 3200 edges per grid point and computes the first layer as four 16-deep products against the
  four bands of the first weight, added left to right; the reference joins the four rows into one 64-wide row and
  multiplies once. A sum over 64 positions is the sum of its four bands, so the two agree entry by entry, for every
  content of the arrays (nothing needs to be finite: only associativity and commutativity of addition are used).

  The kernel's frames and its blockwise value come from the generated modules; the body's value at an entry
  (Proof/KernelPayload.lean), the passage from blocks to the array (Proof/KernelValue.lean), the arrays the host
  operations wrote before the region (Proof/KernelEntry.lean), the reference's run (Proof/RefRun.lean) and value
  (Proof/RefLayers.lean, Proof/RefLine.lean) and the network's two arrangements (Proof/MlpSpec.lean) are written by hand.
-/
import proofs.«160168_j83631603188044_1_alg».proof.Defs
import proofs.«160168_j83631603188044_1_alg».proof.Proof.Gen.Kernel
import proofs.«160168_j83631603188044_1_alg».proof.Proof.Gen.Kernel.Skeleton
import proofs.«160168_j83631603188044_1_alg».proof.Proof.Gen.Kernel.Launch
import proofs.«160168_j83631603188044_1_alg».proof.Proof.Gen.Kernel.Points
import proofs.«160168_j83631603188044_1_alg».proof.Proof.Gen.Kernel.Frame
import proofs.«160168_j83631603188044_1_alg».proof.Proof.Gen.KernelIdeal
import proofs.«160168_j83631603188044_1_alg».proof.Proof.Gen.KernelIdeal.Skeleton
import proofs.«160168_j83631603188044_1_alg».proof.Proof.Gen.KernelIdeal.Launch
import proofs.«160168_j83631603188044_1_alg».proof.Proof.Gen.KernelIdeal.Points
import proofs.«160168_j83631603188044_1_alg».proof.Proof.Gen.KernelIdeal.Frame
import proofs.«160168_j83631603188044_1_alg».proof.Proof.Gen.KernelIdeal.Value
import proofs.«160168_j83631603188044_1_alg».proof.Proof.Gen.ReferenceIdeal
import proofs.«160168_j83631603188044_1_alg».proof.Proof.Gen.Pre_finite_inputs
import proofs.«160168_j83631603188044_1_alg».proof.Proof.KernelEntry
import proofs.«160168_j83631603188044_1_alg».proof.Proof.RefLine
import Idealize.ShloMosaic.Adequacy
import Idealize.ShloMosaic.Init

noncomputable section

namespace Cert.Proof

open Idealize.ShloMosaic Idealize.SL.Sem

/-! ## The two programs' takes are one function -/

section Takes
-- both takes are the same gather, and the same reduction of the in-range mask, of the same arguments
attribute [local irreducible] Host.reduce Host.gather

theorem takeNode_eq (x : FVec Ideal Cert.KernelIdeal.S100000x16 .f32) (idx : IVec Cert.KernelIdeal.S1600000 32) :
    Cert.ReferenceIdeal.Line.takeNode x idx = Cert.KernelIdeal.Entry.takeNode x idx := rfl

theorem takeGraph_eq (x : FVec Ideal Cert.KernelIdeal.S8x16 .f32) (idx : IVec Cert.KernelIdeal.S1600000 32) :
    Cert.ReferenceIdeal.Line.takeGraph x idx = Cert.KernelIdeal.Entry.takeGraph x idx := rfl

end Takes

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Line.run m ρ)

/-- The ideal pass rewrote nothing: the idealization is the kernel's own text read over the extended reals. -/
theorem preserves : Cert.preserves_Kernel_KernelIdeal := trivial

/-- Both runs end with the result array at the same function of the arguments: the network of each edge's own row and
    its three gathered rows, band by band. -/
theorem algebraic : Cert.algebraic_KernelIdeal_ReferenceIdeal := by
  intro m ρ m' ρ' _ hagree
  refine ⟨fun c => Cert.KernelIdeal.Entry.Gargs m c, ?_, ?_⟩
  · exact (θ_run Cert.KernelIdeal.defs _ _).mono
      (fun r h c => ⟨(h c).1.trans (Cert.KernelIdeal.Entry.Gk_eq m c), (h c).2⟩) (Cert.KernelIdeal.ArrayValue.run m ρ)
  · refine (θ_run Cert.ReferenceIdeal.defs _ _).mono (fun r h c => ⟨(h c).1.trans ?_, (h c).2⟩)
      (Cert.ReferenceIdeal.Line.run m' ρ')
    obtain ⟨h0, h1, h2, h3, h4, h5, h6, h7, h8, h9, h10, h11⟩ := hagree c
    unfold Cert.ReferenceIdeal.Line.Gargs Cert.KernelIdeal.Entry.Gargs
    rw [h0, h1, h2, h3, h4, h5, h6, h7, h8, h9, h10, h11, takeNode_eq, takeNode_eq, takeGraph_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
